-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x1600000 : Shape := ⟨2, ![2, 1600000]⟩
abbrev S10x32 : Shape := ⟨2, ![10, 32]⟩
abbrev S32 : Shape := ⟨1, ![32]⟩
abbrev S32x64 : Shape := ⟨2, ![32, 64]⟩
abbrev S64 : Shape := ⟨1, ![64]⟩
abbrev S74x1 : Shape := ⟨2, ![74, 1]⟩
abbrev S1 : Shape := ⟨1, ![1]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S10x32 : S_.BroadcastsInDim S10x32 (![] : Fin 0 → Fin S10x32.rank)
  reducesTo_S10x32_S_d0_1 : S10x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S74x1 : S_.BroadcastsInDim S74x1 (![] : Fin 0 → Fin S74x1.rank)
  reducesTo_S74x1_S_d0_1 : S74x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S74x1 .f32) (main_arg7 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S74x1 .f32 := Host.absf main_arg6
  let main_cst_8 : FVec F S_ .f32 := constant S_ .f32 0x7F800000#32
  let main_v25 : FVec F S74x1 .f32 := broadcastInDim S74x1 ![] bcast_S_S74x1 main_cst_8
  let main_v26 : IVec S74x1 1 := cmpf .olt main_v24 main_v25
  let main_c_9 : IVec S_ 1 := constantI S_ 1 1#1
  let main_v27 : IVec S_ 1 := (fun x v => Host.reduce IntOp.andi x v reducesTo_S74x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x10 .f32) (main_arg1 : IVec S2x1600000 32) (main_arg2 : FVec F S10x32 .f32) (main_arg3 : FVec F S32 .f32) (main_arg4 : FVec F S32x64 .f32) (main_arg5 : FVec F S64 .f32) (main_arg6 : FVec F S74x1 .f32) (main_arg7 : FVec F S1 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S10x32 .f32 := Host.absf main_arg2
  let main_cst_0 : FVec F S_ .f32 := constant S_ .f32 0x7F800000#32
  let main_v5 : FVec F S10x32 .f32 := broadcastInDim S10x32 ![] bcast_S_S10x32 main_cst_0
  let main_v6 : IVec S10x32 1 := cmpf .olt main_v4 main_v5
  let main_c_1 : IVec S_ 1 := constantI S_ 1 1#1
  let main_v7 : IVec S_ 1 := (fun x v => Host.reduce IntOp.andi x v reducesTo_S10x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_v13 main_v16
-- ==== Kernel.lean ====
abbrev S100000x10 : Shape := ⟨2, ![100000, 10]⟩
abbrev S2x1600000 : Shape := ⟨2, ![2, 1600000]⟩
abbrev S10x32 : Shape := ⟨2, ![10, 32]⟩
abbrev S32 : Shape := ⟨1, ![32]⟩
abbrev S32x64 : Shape := ⟨2, ![32, 64]⟩
abbrev S64 : Shape := ⟨1, ![64]⟩
abbrev S74x1 : Shape := ⟨2, ![74, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S10000x10 : Shape := ⟨2, ![10000, 10]⟩
abbrev S10000x32 : Shape := ⟨2, ![10000, 32]⟩
abbrev S1700000x32 : Shape := ⟨2, ![1700000, 32]⟩
abbrev S1x32 : Shape := ⟨2, ![1, 32]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩
abbrev S10000x74 : Shape := ⟨2, ![10000, 74]⟩

abbrev nBuf : Space → Nat
  | .hbm => 87
  | .vmem => 20
  | .smem => 0
  | _ => 0

abbrev bufTy : (tb : Table) → Fin (tcTables nBuf tb) → BufTy
  | .hbm, ⟨0, _⟩ => ⟨S100000x10, .f32⟩
  | .hbm, ⟨1, _⟩ => ⟨S2x1600000, .i32⟩
  | .hbm, ⟨2, _⟩ => ⟨S10x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S74x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x32, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x32, .f32⟩
  | .hbm, ⟨58, _⟩ => ⟨S1700000x1, .f32⟩
  | .hbm, ⟨59, _⟩ => ⟨S1700000x32, .f32⟩
  | .hbm, ⟨60, _⟩ => ⟨S1700000x32, .f32⟩
  | .hbm, ⟨61, _⟩ => ⟨S_, .f32⟩
  | .hbm, ⟨62, _⟩ => ⟨S100000x32, .f32⟩
  | .hbm, ⟨63, _⟩ => ⟨S1700000x1, .i32⟩
  | .hbm, ⟨64, _⟩ => ⟨S100000x32, .f32⟩
  | .hbm, ⟨65, _⟩ => ⟨S1x32, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S1x1, .f32⟩
  | .hbm, ⟨85, _⟩ => ⟨S100000x1, .f32⟩
  | .hbm, ⟨86, _⟩ => ⟨S100000, .f32⟩
  | .local _ .vmem, ⟨0, _⟩ => ⟨S10000x10, .f32⟩
  | .local _ .vmem, ⟨1, _⟩ => ⟨S10000x10, .f32⟩
  | .local _ .vmem, ⟨2, _⟩ => ⟨S10x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x64, .f32⟩
  | .local _ .vmem, ⟨9, _⟩ => ⟨S10000x64, .f32⟩
  | .local _ .vmem, ⟨10, _⟩ => ⟨S10000x64, .f32⟩
  | .local _ .vmem, ⟨11, _⟩ => ⟨S10000x10, .f32⟩
  | .local _ .vmem, ⟨12, _⟩ => ⟨S10000x10, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S74x1, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S74x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x10_S10000x10_0_0 : ∀ a, (![0, 0] : Fin 2 → Nat) a + S10000x10.size a ≤ S10000x10.size a
  h_S10000x10 : 0 < S10000x10.numel
  bitsLt_bf16_f32 : FTy.bits .bf16 < FTy.bits .f32
  inb_S10x32_S10x32_0_0 : ∀ a, (![0, 0] : Fin 2 → Nat) a + S10x32.size a ≤ S10x32.size a
  h_S10x32 : 0 < S10x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S1_S1x1 : S1.ShapeCasts S1x1
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  concatenates_S10000x10_S10000x64_S10000x74_d1 : Shape.Concatenates [S10000x10, S10000x64] S10000x74 1
  inb_S74x1_S74x1_0_0 : ∀ a, (![0, 0] : Fin 2 → Nat) a + S74x1.size a ≤ S74x1.size a
  h_S74x1 : 0 < S74x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x10_S10x32_S10000x32_1_0_0_1_n_n_wf : DotDims.WF S10000x10 S10x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x64_S10000x64_1_0_0_1_n_n_wf : DotDims.WF S10000x32 S32x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x74_S74x1_S10000x1_1_0_0_1_n_n_wf : DotDims.WF S10000x74 S74x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x10.size a ≤ S100000x10.size a
  hwx0_0 : ∀ i : grid0.Coords, EltTy.bits .f32 = 32 ∨ (Rect.block (s := S100000x10) S10000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x32.size a ≤ S10x32.size a
  hwx0_1 : ∀ i : grid0.Coords, EltTy.bits .f32 = 32 ∨ (Rect.block (s := S10x32) S10x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x10.size a ≤ S100000x10.size a
  hwx2_0 : ∀ i : grid2.Coords, EltTy.bits .f32 = 32 ∨ (Rect.block (s := S100000x10) S10000x10.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S74x1.size a ≤ S74x1.size a
  hwx2_3 : ∀ i : grid2.Coords, EltTy.bits .f32 = 32 ∨ (Rect.block (s := S74x1) S74x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x1.size a ≤ S100000x1.size a
  hwx2_5 : ∀ i : grid2.Coords, EltTy.bits .f32 = 32 ∨ (Rect.block (s := S100000x1) S10000x1.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x10_S10x32_S10000x32_1_0_0_1_n_n : DotDims S10000x10 S10x32 S10000x32 where
  lhsContracting := [1]
  rhsContracting := [0]
  lhsNonContracting := [0]
  rhsNonContracting := [1]
  lhsBatch := []
  rhsBatch := []
  wf := dot_S10000x10_S10x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x74_S74x1_S10000x1_1_0_0_1_n_n : DotDims S10000x74 S74x1 S10000x1 where
  lhsContracting := [1]
  rhsContracting := [0]
  lhsNonContracting := [0]
  rhsNonContracting := [1]
  lhsBatch := []
  rhsBatch := []
  wf := dot_S10000x74_S74x1_S10000x1_1_0_0_1_n_n_wf

abbrev win0_0 : Pipeline.Window sig grid0 :=
  Pipeline.Window.ofSpec (Memref.whole main_arg0) S10000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S10000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S74x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S10000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x10 : Shape := ⟨2, ![100000, 10]⟩
abbrev S2x1600000 : Shape := ⟨2, ![2, 1600000]⟩
abbrev S10x32 : Shape := ⟨2, ![10, 32]⟩
abbrev S32 : Shape := ⟨1, ![32]⟩
abbrev S32x64 : Shape := ⟨2, ![32, 64]⟩
abbrev S64 : Shape := ⟨1, ![64]⟩
abbrev S74x1 : Shape := ⟨2, ![74, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x32 : Shape := ⟨2, ![100000, 32]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x64 : Shape := ⟨2, ![100000, 64]⟩
abbrev S1700000x64 : Shape := ⟨2, ![1700000, 64]⟩
abbrev S1x64 : Shape := ⟨2, ![1, 64]⟩
abbrev S100000x74 : Shape := ⟨2, ![100000, 74]⟩
abbrev S100000x1 : Shape := ⟨2, ![100000, 1]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S100000x10, .f32⟩
  | 1 => ⟨S2x1600000, .i32⟩
  | 2 => ⟨S10x32, .f32⟩
  | 3 => ⟨S32, .f32⟩
  | 4 => ⟨S32x64, .f32⟩
  | 5 => ⟨S64, .f32⟩
  | 6 => ⟨S74x1, .f32⟩
  | 7 => ⟨S1, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x32, .f32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x32, .f32⟩
  | 58 => ⟨S1700000x1, .f32⟩
  | 59 => ⟨S1700000x32, .f32⟩
  | 60 => ⟨S1700000x32, .f32⟩
  | 61 => ⟨S_, .f32⟩
  | 62 => ⟨S100000x32, .f32⟩
  | 63 => ⟨S1700000x1, .i32⟩
  | 64 => ⟨S100000x32, .f32⟩
  | 65 => ⟨S1x32, .f32⟩
  | 66 => ⟨S100000x32, .f32⟩
  | 67 => ⟨S100000x32, .f32⟩
  | 68 => ⟨S_, .f32⟩
  | 69 => ⟨S_, .f32⟩
  | 70 => ⟨S100000x32, .f32⟩
  | 71 => ⟨S100000x32, .i1⟩
  | 72 => ⟨S_, .f32⟩
  | 73 => ⟨S100000x32, .f32⟩
  | 74 => ⟨S100000x32, .f32⟩
  | 75 => ⟨S100000x32, .f32⟩
  | 76 => ⟨S100000x64, .f32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x10, .f32⟩

abbrev hbmTy0_1 (i : Nat) : BufTy := match i % 128 with
  | 0 => ⟨S100000x64, .f32⟩
  | 1 => ⟨S_, .f32⟩
  | 2 => ⟨S_, .f32⟩
  | 3 => ⟨S100000x64, .f32⟩
  | 4 => ⟨S100000x64, .i1⟩
  | 5 => ⟨S_, .f32⟩
  | 6 => ⟨S100000x64, .f32⟩
  | 7 => ⟨S100000x64, .f32⟩
  | 8 => ⟨S100000x64, .f32⟩
  | 9 => ⟨S100000x74, .f32⟩
  | 10 => ⟨S100000x1, .f32⟩
  | 11 => ⟨S1x1, .f32⟩
  | 12 => ⟨S100000x1, .f32⟩
  | 13 => ⟨S100000x1, .f32⟩
  | 14 => ⟨S100000, .f32⟩
  | 15 => ⟨S100000, .f32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_call2_v0 : Ref sig .tc := ⟨.hbm, 88, rfl⟩
abbrev main_call2_v1 : Ref sig .tc := ⟨.hbm, 89, rfl⟩
abbrev main_v56 : Ref sig .tc := ⟨.hbm, 90, rfl⟩
abbrev main_c_14 : Ref sig .tc := ⟨.hbm, 91, rfl⟩
abbrev main_v57 : Ref sig .tc := ⟨.hbm, 92, rfl⟩
abbrev main_v58 : Ref sig .tc := ⟨.hbm, 93, rfl⟩
abbrev main_c_15 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_16 : Ref sig .tc := ⟨.hbm, 100, rfl⟩
abbrev main_v64 : Ref sig .tc := ⟨.hbm, 101, rfl⟩
abbrev main_v65 : Ref sig .tc := ⟨.hbm, 102, rfl⟩
abbrev main_c_17 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_18 : Ref sig .tc := ⟨.hbm, 110, rfl⟩
abbrev main_v72 : Ref sig .tc := ⟨.hbm, 111, rfl⟩
abbrev main_v73 : Ref sig .tc := ⟨.hbm, 112, rfl⟩
abbrev main_c_19 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_20 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_21 : Ref sig .tc := ⟨.hbm, 129, rfl⟩
abbrev main_call3_cst : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_22 : Ref sig .tc := ⟨.hbm, 145, rfl⟩
abbrev main_v97 : Ref sig .tc := ⟨.hbm, 146, rfl⟩
abbrev main_v98 : Ref sig .tc := ⟨.hbm, 147, rfl⟩
abbrev main_cst_23 : Ref sig .tc := ⟨.hbm, 148, rfl⟩
abbrev main_v99 : Ref sig .tc := ⟨.hbm, 149, rfl⟩
abbrev main_v100 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x10_S100000x64_S100000x74_d1 : Shape.Concatenates [S100000x10, S100000x64] S100000x74 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x10_S10x32_S100000x32_1_0_0_1_n_n_wf : DotDims.WF S100000x10 S10x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x74_S74x1_S100000x1_1_0_0_1_n_n_wf : DotDims.WF S100000x74 S74x1 S100000x1 [1] [0] [0] [1] [] []

variable [Facts₀]

def dot_S100000x10_S10x32_S100000x32_1_0_0_1_n_n : DotDims S100000x10 S10x32 S100000x32 where
  lhsContracting := [1]
  rhsContracting := [0]
  lhsNonContracting := [0]
  rhsNonContracting := [1]
  lhsBatch := []
  rhsBatch := []
  wf := dot_S100000x10_S10x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x74_S74x1_S100000x1_1_0_0_1_n_n : DotDims S100000x74 S74x1 S100000x1 where
  lhsContracting := [1]
  rhsContracting := [0]
  lhsNonContracting := [0]
  rhsNonContracting := [1]
  lhsBatch := []
  rhsBatch := []
  wf := dot_S100000x74_S74x1_S100000x1_1_0_0_1_n_n_wf

class Facts : Prop extends Facts₀ where

variable [Facts]
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.GraphK.lean ====
/-
  The graph part of a two-layer graph convolution, as functions of arrays.

  From the edge list `E` (two rows of 1 600 000 node numbers) the program forms the source list `rowIdx E` and
  the target list `colIdx E`, each the edge row followed by the 100 000 self loops 0, 1, …, 99 999.  The degree of a
  node is the number of list entries that name it as a target; `normOf` gives each of the 1 700 000 entries the
  weight d(source)^(-1/2) · d(target)^(-1/2), with 0 in place of d^(-1/2) where the degree is not positive.
  `agg32` and `agg64` send a feature table to its weighted neighbourhood sums: entry k contributes
  weight(k) · feat[source(k), :] to row target(k).  A negative list entry is first moved up by 100 000 where it is
  used to pick a row.  All of this is spelt with the host's own gather and scatter-add, which are never opened:
  both programs apply the same functions to the same lists, and only the feature tables differ in how they are
  computed.
-/
import proofs.«173752_j1967095022252_1_alg».proof.KernelIdeal

noncomputable section

namespace Cert.KernelIdeal.Spec

open Idealize.ShloMosaic Cert.KernelIdeal Cert.KernelIdeal.Facts₀

variable {F : FTy → Type} [FloatOps F] [Cert.KernelIdeal.Facts₀]

/-- The sources: row 0 of the edge list, then the self loops. -/
def rowIdx (E : (⟨S2x1600000, .i32⟩ : BufTy).Contents (Elt F)) : (⟨S1700000, .i32⟩ : BufTy).Contents (Elt F) :=
  concatenate S1700000 0
    [⟨S1600000, fun i => shapeCast S1600000
        (extractStridedSlice S1x1600000 ![0, 0] E slices_S2x1600000_S1x1600000_0_0) shapeCasts_S1x1600000_S1600000 i⟩,
      ⟨S100000, iotaInDim S100000 32 0⟩]
    concatenates_S1600000_S100000_S1700000_d0

/-- The targets: row 1 of the edge list, then the self loops. -/
def colIdx (E : (⟨S2x1600000, .i32⟩ : BufTy).Contents (Elt F)) : (⟨S1700000, .i32⟩ : BufTy).Contents (Elt F) :=
  concatenate S1700000 0
    [⟨S1600000, fun i => shapeCast S1600000
        (extractStridedSlice S1x1600000 ![1, 0] E slices_S2x1600000_S1x1600000_1_0) shapeCasts_S1x1600000_S1600000 i⟩,
      ⟨S100000, iotaInDim S100000 32 0⟩]
    concatenates_S1600000_S100000_S1700000_d0

/-- A list of node numbers as a column of row picks: a negative entry moved up by the number of nodes. -/
def pick (idx : (⟨S1700000, .i32⟩ : BufTy).Contents (Elt F)) : (⟨S1700000x1, .i32⟩ : BufTy).Contents (Elt F) :=
  broadcastInDim S1700000x1 ![0] bcast_S1700000_S1700000x1_0
    (select (cmpi .slt idx (broadcastInDim S1700000 ![] bcast_S_S1700000 (constantI S_ 32 0#32)))
      (addi idx (broadcastInDim S1700000 ![] bcast_S_S1700000 (constantI S_ 32 100000#32))) idx)

/-- d^(-1/2) per node, 0 where the degree d (the number of list entries with that target) is not positive. -/
def dinvOf (col : (⟨S1700000, .i32⟩ : BufTy).Contents (Elt F)) : (⟨S100000, .f32⟩ : BufTy).Contents (Elt F) :=
  select
    (cmpf .ogt
      (Host.scatterAdd scatter_S100000_S1700000x1_S1700000_n_0_0_1
        (broadcastInDim S100000 ![] bcast_S_S100000 (constant (F := F) S_ .f32 0x00000000#32))
        (broadcastInDim S1700000x1 ![0] bcast_S1700000_S1700000x1_0 col)
        (broadcastInDim S1700000 ![] bcast_S_S1700000 (constant (F := F) S_ .f32 0x3F800000#32)))
      (broadcastInDim S100000 ![] bcast_S_S100000 (constant (F := F) S_ .f32 0x00000000#32)))
    (Host.rsqrt
      (Host.scatterAdd scatter_S100000_S1700000x1_S1700000_n_0_0_1
        (broadcastInDim S100000 ![] bcast_S_S100000 (constant (F := F) S_ .f32 0x00000000#32))
        (broadcastInDim S1700000x1 ![0] bcast_S1700000_S1700000x1_0 col)
        (broadcastInDim S1700000 ![] bcast_S_S1700000 (constant (F := F) S_ .f32 0x3F800000#32))))
    (broadcastInDim S100000 ![] bcast_S_S100000 (id (constant (F := F) S_ .f32 0x00000000#32)))

/-- The weight of each list entry: d^(-1/2) of its source times d^(-1/2) of its target. -/
def normOf (row col : (⟨S1700000, .i32⟩ : BufTy).Contents (Elt F)) : (⟨S1700000, .f32⟩ : BufTy).Contents (Elt F) :=
  mulf (Host.gather gather_S100000_S1700000x1_S1700000_n_0_n_n_0_1_1 (dinvOf col) (pick row))
    (Host.gather gather_S100000_S1700000x1_S1700000_n_0_n_n_0_1_1 (dinvOf col) (pick col))

/-- The weighted neighbourhood sums of a 32-column feature table. -/
def agg32 (feat : (⟨S100000x32, .f32⟩ : BufTy).Contents (Elt F)) (row col : (⟨S1700000, .i32⟩ : BufTy).Contents (Elt F))
    (w : (⟨S1700000, .f32⟩ : BufTy).Contents (Elt F)) : (⟨S100000x32, .f32⟩ : BufTy).Contents (Elt F) :=
  Host.scatterAdd scatter_S100000x32_S1700000x1_S1700000x32_1_0_0_1
    (broadcastInDim S100000x32 ![] bcast_S_S100000x32 (constant (F := F) S_ .f32 0x00000000#32))
    (broadcastInDim S1700000x1 ![0] bcast_S1700000_S1700000x1_0 col)
    (mulf (Host.gather gather_S100000x32_S1700000x1_S1700000x32_1_0_n_n_0_1_132 feat (pick row))
      (broadcastInDim S1700000x32 ![0, 1] bcast_S1700000x1_S1700000x32_0_1
        (broadcastInDim S1700000x1 ![0] bcast_S1700000_S1700000x1_0 w)))

/-- The weighted neighbourhood sums of a 64-column feature table. -/
def agg64 (feat : (⟨S100000x64, .f32⟩ : BufTy).Contents (Elt F)) (row col : (⟨S1700000, .i32⟩ : BufTy).Contents (Elt F))
    (w : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 col)
    (mulf (Host.gather gather_S100000x64_S1700000x1_S1700000x64_1_0_n_n_0_1_164 feat (pick row))
      (broadcastInDim S1700000x64 ![0, 1] bcast_S1700000x1_S1700000x64_0_1
        (broadcastInDim S1700000x1 ![0] bcast_S1700000_S1700000x1_0 w)))

end Cert.KernelIdeal.Spec

end
-- ==== Proof.KHost.lean ====
/-
  The kernel program's buffers at the boundaries between its host stretches and its three regions.

  A host stretch leaves every buffer it does not write as it was, and a region leaves every buffer that is not one of its
  output arrays as it was.  So the argument arrays are the launch arrays at every boundary; the source list, the target
  list and the edge weights computed by the first stretches are the graph functions of the edge-list argument at every
  later boundary; the first aggregation is the weighted neighbourhood sum of the first region's output, and the second
  of the second region's output; the bias rows the regions read are the bias arguments reshaped to one row.
-/
import proofs.«173752_j1967095022252_1_alg».proof.Proof.Gen.KernelIdeal.Frame
import proofs.«173752_j1967095022252_1_alg».proof.Proof.LibHostRead
import proofs.«173752_j1967095022252_1_alg».proof.Proof.GraphK

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen Cert.HostRead

variable {F : FTy → Type} [FloatOps F]
variable (m : (ℓ : Loc nD τ sig) → Buf (Elt F) ℓ) (ρ : Dev nD → PrngReg)

/-! ## Before the first region -/

theorem W3_arg0 (c : Dev nD) : W3 m ρ c (Proc.devRef .tc main_arg0) = m ((c : Thread nD τ).loc main_arg0) := by
  read_results
theorem W3_arg2 (c : Dev nD) : W3 m ρ c (Proc.devRef .tc main_arg2) = m ((c : Thread nD τ).loc main_arg2) := by
  read_results
theorem W3_arg3 (c : Dev nD) : W3 m ρ c (Proc.devRef .tc main_arg3) = m ((c : Thread nD τ).loc main_arg3) := by
  read_results
theorem W3_arg4 (c : Dev nD) : W3 m ρ c (Proc.devRef .tc main_arg4) = m ((c : Thread nD τ).loc main_arg4) := by
  read_results
theorem W3_arg5 (c : Dev nD) : W3 m ρ c (Proc.devRef .tc main_arg5) = m ((c : Thread nD τ).loc main_arg5) := by
  read_results
theorem W3_arg6 (c : Dev nD) : W3 m ρ c (Proc.devRef .tc main_arg6) = m ((c : Thread nD τ).loc main_arg6) := by
  read_results
theorem W3_arg7 (c : Dev nD) : W3 m ρ c (Proc.devRef .tc main_arg7) = m ((c : Thread nD τ).loc main_arg7) := by
  read_results

/-- The source list. -/
theorem W3_row (c : Dev nD) : W3 m ρ c (Proc.devRef .tc main_v3) = Spec.rowIdx (m ((c : Thread nD τ).loc main_arg1)) := by
  read_results
  rfl

/-- The target list. -/
theorem W3_col (c : Dev nD) : W3 m ρ c (Proc.devRef .tc main_v6) = Spec.colIdx (m ((c : Thread nD τ).loc main_arg1)) := by
  read_results
  rfl

/-- The edge weights. -/
theorem W3_norm (c : Dev nD) : W3 m ρ c (Proc.devRef .tc main_v29)
    = Spec.normOf (Spec.rowIdx (m ((c : Thread nD τ).loc main_arg1))) (Spec.colIdx (m ((c : Thread nD τ).loc main_arg1))) := by
  read_results
  rfl

/-! ## Across the first region -/

theorem W4_arg0 (c : Dev nD) : W4 m ρ c (Proc.devRef .tc main_arg0) = W3 m ρ c (Proc.devRef .tc main_arg0) :=
  (W4_arr m ρ c 0).trans (((dat0 (V3 m ρ) c).arrAt_in 0 rfl _).trans (A_eq0 (V3 m ρ) c 0))
theorem W4_v3 (c : Dev nD) : W4 m ρ c (Proc.devRef .tc main_v3) = W3 m ρ c (Proc.devRef .tc main_v3) := W4_of_ne m ρ c main_v3 (by decide)
theorem W4_v6 (c : Dev nD) : W4 m ρ c (Proc.devRef .tc main_v6) = W3 m ρ c (Proc.devRef .tc main_v6) := W4_of_ne m ρ c main_v6 (by decide)
theorem W4_v29 (c : Dev nD) : W4 m ρ c (Proc.devRef .tc main_v29) = W3 m ρ c (Proc.devRef .tc main_v29) := W4_of_ne m ρ c main_v29 (by decide)
theorem W4_arg3 (c : Dev nD) : W4 m ρ c (Proc.devRef .tc main_arg3) = W3 m ρ c (Proc.devRef .tc main_arg3) := W4_of_ne m ρ c main_arg3 (by decide)
theorem W4_arg4 (c : Dev nD) : W4 m ρ c (Proc.devRef .tc main_arg4) = W3 m ρ c (Proc.devRef .tc main_arg4) := W4_of_ne m ρ c main_arg4 (by decide)
theorem W4_arg5 (c : Dev nD) : W4 m ρ c (Proc.devRef .tc main_arg5) = W3 m ρ c (Proc.devRef .tc main_arg5) := W4_of_ne m ρ c main_arg5 (by decide)
theorem W4_arg6 (c : Dev nD) : W4 m ρ c (Proc.devRef .tc main_arg6) = W3 m ρ c (Proc.devRef .tc main_arg6) := W4_of_ne m ρ c main_arg6 (by decide)
theorem W4_arg7 (c : Dev nD) : W4 m ρ c (Proc.devRef .tc main_arg7) = W3 m ρ c (Proc.devRef .tc main_arg7) := W4_of_ne m ρ c main_arg7 (by decide)

/-! ## The stretch before the second region -/

theorem W5_v3 (c : Dev nD) : W5 m ρ c (Proc.devRef .tc main_v3) = W4 m ρ c (Proc.devRef .tc main_v3) := by
  read_results
theorem W5_v6 (c : Dev nD) : W5 m ρ c (Proc.devRef .tc main_v6) = W4 m ρ c (Proc.devRef .tc main_v6) := by
  read_results
theorem W5_v29 (c : Dev nD) : W5 m ρ c (Proc.devRef .tc main_v29) = W4 m ρ c (Proc.devRef .tc main_v29) := by
  read_results
theorem W5_arg0 (c : Dev nD) : W5 m ρ c (Proc.devRef .tc main_arg0) = W4 m ρ c (Proc.devRef .tc main_arg0) := by
  read_results
theorem W5_arg4 (c : Dev nD) : W5 m ρ c (Proc.devRef .tc main_arg4) = W4 m ρ c (Proc.devRef .tc main_arg4) := by
  read_results
theorem W5_arg5 (c : Dev nD) : W5 m ρ c (Proc.devRef .tc main_arg5) = W4 m ρ c (Proc.devRef .tc main_arg5) := by
  read_results
theorem W5_arg6 (c : Dev nD) : W5 m ρ c (Proc.devRef .tc main_arg6) = W4 m ρ c (Proc.devRef .tc main_arg6) := by
  read_results
theorem W5_arg7 (c : Dev nD) : W5 m ρ c (Proc.devRef .tc main_arg7) = W4 m ρ c (Proc.devRef .tc main_arg7) := by
  read_results

/-- The first aggregation: the weighted neighbourhood sums of the first region's output. -/
theorem W5_v43 (c : Dev nD) : W5 m ρ c (Proc.devRef .tc main_v43)
    = Spec.agg32 (W4 m ρ c (Proc.devRef .tc main_v30)) (W4 m ρ c (Proc.devRef .tc main_v3)) (W4 m ρ c (Proc.devRef .tc main_v6))
        (W4 m ρ c (Proc.devRef .tc main_v29)) := by
  read_results
  rfl

/-- The first bias as one row. -/
theorem W5_v44 (c : Dev nD) : W5 m ρ c (Proc.devRef .tc main_v44)
    = fun i => shapeCast S1x32 (W4 m ρ c (Proc.devRef .tc main_arg3)) shapeCasts_S32_S1x32 i := by
  read_results
  rfl

/-! ## Across the second region -/

theorem W6_v3 (c : Dev nD) : W6 m ρ c (Proc.devRef .tc main_v3) = W5 m ρ c (Proc.devRef .tc main_v3) := W6_of_ne m ρ c main_v3 (by decide)
theorem W6_v6 (c : Dev nD) : W6 m ρ c (Proc.devRef .tc main_v6) = W5 m ρ c (Proc.devRef .tc main_v6) := W6_of_ne m ρ c main_v6 (by decide)
theorem W6_v29 (c : Dev nD) : W6 m ρ c (Proc.devRef .tc main_v29) = W5 m ρ c (Proc.devRef .tc main_v29) := W6_of_ne m ρ c main_v29 (by decide)
theorem W6_arg0 (c : Dev nD) : W6 m ρ c (Proc.devRef .tc main_arg0) = W5 m ρ c (Proc.devRef .tc main_arg0) := W6_of_ne m ρ c main_arg0 (by decide)
theorem W6_arg5 (c : Dev nD) : W6 m ρ c (Proc.devRef .tc main_arg5) = W5 m ρ c (Proc.devRef .tc main_arg5) := W6_of_ne m ρ c main_arg5 (by decide)
theorem W6_arg6 (c : Dev nD) : W6 m ρ c (Proc.devRef .tc main_arg6) = W5 m ρ c (Proc.devRef .tc main_arg6) := W6_of_ne m ρ c main_arg6 (by decide)
theorem W6_arg7 (c : Dev nD) : W6 m ρ c (Proc.devRef .tc main_arg7) = W5 m ρ c (Proc.devRef .tc main_arg7) := W6_of_ne m ρ c main_arg7 (by decide)

/-! ## The stretch before the third region -/

theorem W7_arg0 (c : Dev nD) : W7 m ρ c (Proc.devRef .tc main_arg0) = W6 m ρ c (Proc.devRef .tc main_arg0) := by
  read_results
theorem W7_arg6 (c : Dev nD) : W7 m ρ c (Proc.devRef .tc main_arg6) = W6 m ρ c (Proc.devRef .tc main_arg6) := by
  read_results

/-- The second aggregation: the weighted neighbourhood sums of the second region's output. -/
theorem W7_v58 (c : Dev nD) : W7 m ρ c (Proc.devRef .tc main_v58)
    = Spec.agg64 (W6 m ρ c (Proc.devRef .tc main_v45)) (W6 m ρ c (Proc.devRef .tc main_v3)) (W6 m ρ c (Proc.devRef .tc main_v6))
        (W6 m ρ c (Proc.devRef .tc main_v29)) := by
  read_results
  rfl

/-- The second bias as one row. -/
theorem W7_v59 (c : Dev nD) : W7 m ρ c (Proc.devRef .tc main_v59)
    = fun i => shapeCast S1x64 (W6 m ρ c (Proc.devRef .tc main_arg5)) shapeCasts_S64_S1x64 i := by
  read_results
  rfl

/-- The last bias as a 1 × 1 array. -/
theorem W7_v60 (c : Dev nD) : W7 m ρ c (Proc.devRef .tc main_v60)
    = fun i => shapeCast S1x1 (W6 m ρ c (Proc.devRef .tc main_arg7)) shapeCasts_S1_S1x1 i := by
  read_results
  rfl

/-! ## After the third region -/

/-- The result: the third region's 100 000 × 1 output read as a vector. -/
theorem W9_v62 (c : Dev nD) : W9 m ρ c (Proc.devRef .tc main_v62)
    = fun i => shapeCast S100000 (W8 m ρ c (Proc.devRef .tc main_v61)) shapeCasts_S100000x1_S100000 i := by
  read_results
  rfl

end Cert.KernelIdeal.KHost

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.Entry.lean ====
/-
  The dense stages of the network, entry by entry, on the extended reals.

  `lk z` is the leaky rectifier: z where z ≥ 0, and 0.01·z (0.01 the float 0x3C23D70A) elsewhere.
  `mm1 x w` is the product x · w of a 100 000 × 10 table by a 10 × 32 matrix.
  `hid a b w` is lk (a + b) · w: a bias b added to every row of the 100 000 × 32 table a, the rectifier applied entry by
  entry, then the product with the 32 × 64 matrix w.
  `cat u v` puts 10 numbers before 64; `outp x a b w c` is the last stage: row r of the 100 000 × 10 table x followed by
  row r of lk (a + b) (a the 100 000 × 64 table), multiplied into the 74 × 1 matrix w, plus c, through the logistic
  function 1 / (1 + exp (−·)).
  Each sum is a finite sum over the contraction index; nothing here depends on how a program tiles the rows.
-/
import Idealize.ShloMosaic.PureOps.Ideal.Laws
import Idealize.ShloMosaic.Lib.ValueIdx

noncomputable section

namespace Cert.Entry

open Idealize.ShloMosaic Idealize.ShloMosaic.ValueIdx
open scoped BigOperators

/-- The leaky rectifier with slope 0x3C23D70A on the negative side. -/
def lk (z : EReal) : EReal :=
  Scalar.select (FloatOps.cmpf (F := Ideal) (φ := .f32) .oge z (FloatOps.ofBits (F := Ideal) .f32 0x00000000#32)) z
    (FloatOps.mulf (F := Ideal) (φ := .f32) (FloatOps.ofBits (F := Ideal) .f32 0x3C23D70A#32) z)

/-- x · w. -/
def mm1 (x : (⟨2, ![100000, 10]⟩ : Shape).Idx → EReal) (w : (⟨2, ![10, 32]⟩ : Shape).Idx → EReal) :
    (⟨2, ![100000, 32]⟩ : Shape).Idx → EReal :=
  fun i => ∑ k : Fin 10, x (ix2 (n0 := 100000) (i 0) k) * w (ix2 k (n1 := 32) (i 1))

/-- lk (a + b) · w. -/
def hid (a : (⟨2, ![100000, 32]⟩ : Shape).Idx → EReal) (b : Fin 32 → EReal) (w : (⟨2, ![32, 64]⟩ : Shape).Idx → EReal) :
    (⟨2, ![100000, 64]⟩ : Shape).Idx → EReal :=
  fun i => ∑ k : Fin 32, lk (a (ix2 (n0 := 100000) (i 0) k) + b k) * w (ix2 k (n1 := 64) (i 1))

/-- Ten numbers followed by sixty-four. -/
def cat (u : Fin 10 → EReal) (v : Fin 64 → EReal) : Fin 74 → EReal :=
  fun k => if h : k.val < 10 then u ⟨k.val, h⟩ else v ⟨k.val - 10, by have := k.isLt; omega⟩

/-- logistic ([x | lk (a + b)] · w + c), row by row. -/
def outp (x : (⟨2, ![100000, 10]⟩ : Shape).Idx → EReal) (a : (⟨2, ![100000, 64]⟩ : Shape).Idx → EReal) (b : Fin 64 → EReal)
    (w : (⟨2, ![74, 1]⟩ : Shape).Idx → EReal) (c : EReal) : Fin 100000 → EReal :=
  fun r => Ideal.logistic
    ((∑ k : Fin 74, cat (fun k => x (ix2 r k)) (fun k => lk (a (ix2 r k) + b k)) k * w (ix2 k (0 : Fin 1))) + c)

end Cert.Entry

end
-- ==== Proof.Region0.lean ====
/-
  The first region: the product x · W1, computed 10 000 rows at a time.

  At grid point t the region reads rows 10000·t … 10000·t + 9999 of the 100 000 × 10 array and the whole 10 × 32 array,
  multiplies them (the rounding of both operands to a narrower format is the identity on the extended reals, and a
  product accumulated into zero is the plain sum over the contraction index), and writes the result back as rows
  10000·t … of the 100 000 × 32 output.  Entry (r, q) of the output is written by the point r / 10000 and holds
  ∑ₖ x(r, k) · W1(k, q): the whole product, whatever the arrays are when the region is entered.
-/
import proofs.«173752_j1967095022252_1_alg».proof.Proof.Gen.KernelIdeal.Frame
import proofs.«173752_j1967095022252_1_alg».proof.Proof.LibPlainDot
import proofs.«173752_j1967095022252_1_alg».proof.Proof.Entry
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem pay0_apply (x0 : Vec Ideal S10000x10 .f32) (x1 : Vec Ideal S10x32 .f32) (p : Fin 10000) (q : Fin 32) :
    k0_pay1 x0 x1 (ix2 p q) = ∑ k : Fin 10, (x0 : S10000x10.Idx → EReal) (ix2 p k) * (x1 : S10x32.Idx → EReal) (ix2 k q) := by
  unfold k0_pay1
  show FloatOps.matmul (DotDims.plain 10000 10 32) none _ _ (constant ⟨2, ![10000, 32]⟩ .f32 0x00000000#32) (ix2 p q) = _
  rw [Ideal.matmul_constant_zero_apply]
  exact Cert.PlainDot.contraction_eq _ _ p q

/-- Input window 0's block at point `t` is rows 10000·t … of the array. -/
theorem iblk0_0_apply (c : Dev nD) (t : Fin cfg0.N) (p : Fin 10000) (k : Fin 10) (r : Fin 100000)
    (hr : r.val = t.val * 10000 + p.val) :
    (iblk0 V c 0 t : Vec Ideal S10000x10 .f32) (ix2 p k) = (V c main_arg0 : S100000x10.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 10 + 1 * k.val = k.val; rw [e1]; omega

/-- Input window 1's block at every point is the whole array. -/
theorem iblk0_1_apply (c : Dev nD) (t : Fin cfg0.N) (k : Fin 10) (q : Fin 32) :
    (iblk0 V c 1 t : Vec Ideal S10x32 .f32) (ix2 k q) = (V c main_arg2 : S10x32.Idx → EReal) (ix2 k q) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 10 + 1 * k.val = k.val; rw [e0]; omega
  | ⟨1, _⟩ => show win0_1.index t (1 : Fin 2) * 32 + 1 * q.val = q.val; rw [e1]; omega

/-- The body's result at an entry of the block, as the product's entry at the matching entry of the arrays: for any
    blocks that are rows `r0 …` of `X` and all of `W`. -/
theorem pay0_at (x0 : Vec Ideal S10000x10 .f32) (x1 : Vec Ideal S10x32 .f32) (X : S100000x10.Idx → EReal) (W : S10x32.Idx → EReal)
    (r0 : Nat) (hx : ∀ (p : Fin 10000) (k : Fin 10) (r : Fin 100000), r.val = r0 + p.val → (x0 : S10000x10.Idx → EReal) (ix2 p k) = X (ix2 r k))
    (hw : ∀ (k : Fin 10) (q : Fin 32), (x1 : S10x32.Idx → EReal) (ix2 k q) = W (ix2 k q))
    (j : S10000x32.Idx) (i : S100000x32.Idx) (h0 : (i 0).val = r0 + (j 0).val) (h1 : (i 1).val = (j 1).val) :
    k0_pay1 x0 x1 j = Entry.mm1 X W i := by
  obtain ⟨p, q, rfl⟩ : ∃ (p : Fin 10000) (q : Fin 32), j = ix2 p q := ⟨j 0, j 1, eq_ix2 j⟩
  obtain ⟨r, s, rfl⟩ : ∃ (r : Fin 100000) (s : Fin 32), i = ix2 r s := ⟨i 0, i 1, eq_ix2 i⟩
  have hs : s = q := Fin.ext h1
  subst hs
  rw [pay0_apply]
  unfold Entry.mm1
  refine Finset.sum_congr rfl fun k _ => ?_
  rw [hx p k r h0, hw k s]

theorem flushed_eq (c : Dev nD) (t : Fin cfg0.N) :
    (dat0 V c).flushed 2 t = ((cfg0.win 2).blk t).view.read (Elt Ideal) (Entry.mm1 (V c main_arg0) (V c main_arg2)) := by
  show (cfg0.win 2).cut (grid0.coords t) ((dat0 V c).after 2 t) = _
  rw [after0_2]
  unfold out0_2
  rw [View.canon_unit_zero hz]
  simp only [View.ld_unit_zero (S := S10000x10) hz, View.ld_unit_zero (S := S10x32) hz]
  funext j
  obtain ⟨-, -, -, -, e4, e5⟩ := idx_facts t
  refine pay0_at _ _ _ _ (t.val * 10000) (fun p k r hr => iblk0_0_apply V c t p k r hr) (fun k q => iblk0_1_apply V c t k q) j _ ?_ ?_
  · show win0_2.index t (0 : Fin 2) * 10000 + 1 * (j 0).val = t.val * 10000 + (j 0).val
    rw [e4]; omega
  · show win0_2.index t (1 : Fin 2) * 32 + 1 * (j 1).val = (j 1).val
    rw [e5]; omega

theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- After the region the output array is the product of the two input arrays as the region found them. -/
theorem final (c : Dev nD) : (dat0 V c).arrAt 2 cfg0.N = Entry.mm1 (V c main_arg0) (V c main_arg2) :=
  (dat0 V c).arrAt_eq_of_cover 2 (Entry.mm1 (V c main_arg0) (V c main_arg2)) (fun t _ => flushed_eq V c t) fun i => by
    have hi0 : (i 0).val < 100000 := (i 0).isLt
    have hi1 : (i 1).val < 32 := (i 1).isLt
    have hN : cfg0.N = 10 := N_0
    refine ⟨⟨(i 0).val / 10000, by rw [hN]; omega⟩, flush0_2 _, ?_⟩
    rw [mem_blk]
    obtain ⟨-, -, -, -, e4, e5⟩ := idx_facts ⟨(i 0).val / 10000, by rw [hN]; omega⟩
    intro a
    match a with
    | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
    | ⟨1, _⟩ => show win0_2.index _ (1 : Fin 2) * 32 ≤ (i 1).val ∧ (i 1).val < win0_2.index _ (1 : Fin 2) * 32 + 32; rw [e5]; omega

end Cert.KernelIdeal.R0
end
-- ==== Proof.Region1.lean ====
/-
  The second region: lk (a + b1) · W2, computed 10 000 rows at a time.

  At grid point t the region reads rows 10000·t … of the 100 000 × 32 array a, the 1 × 32 bias row and the whole 32 × 64
  matrix; it adds the bias to every row, applies the leaky rectifier entry by entry, multiplies by the matrix, and writes
  the result back as rows 10000·t … of the 100 000 × 64 output.  Entry (r, q) of the output is written by the point
  r / 10000 and holds ∑ₖ lk (a(r, k) + b(0, k)) · W2(k, q), whatever the arrays are when the region is entered.
-/
import proofs.«173752_j1967095022252_1_alg».proof.Proof.Gen.KernelIdeal.Frame
import proofs.«173752_j1967095022252_1_alg».proof.Proof.LibPlainDot
import proofs.«173752_j1967095022252_1_alg».proof.Proof.Entry
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's result at an entry: the bias row added, the rectifier, the product. -/
theorem pay1_apply (x0 : Vec Ideal S10000x32 .f32) (x1 : Vec Ideal S1x32 .f32) (x2 : Vec Ideal S32x64 .f32) (p : Fin 10000) (q : Fin 64) :
    k1_pay1 x0 x1 x2 (ix2 p q)
      = ∑ k : Fin 32, Cert.Entry.lk ((x0 : S10000x32.Idx → EReal) (ix2 p k) + (x1 : S1x32.Idx → EReal) (ix2 (0 : Fin 1) k))
          * (x2 : S32x64.Idx → EReal) (ix2 k q) := by
  unfold k1_pay1
  show FloatOps.matmul (DotDims.plain 10000 32 64) none _ _ (constant ⟨2, ![10000, 64]⟩ .f32 0x00000000#32) (ix2 p q) = _
  rw [Ideal.matmul_constant_zero_apply]
  refine (Cert.PlainDot.contraction_eq _ _ p q).trans (Finset.sum_congr rfl fun k _ => ?_)
  refine congrArg (· * (x2 : S32x64.Idx → EReal) (ix2 k q)) ?_
  show Cert.Entry.lk ((shapeCast S10000x32 (x0 : S10000x32.Idx → EReal) shapeCasts_S10000x32_S10000x32 (ix2 p k) : EReal)
      + (broadcastTo S10000x32 (shapeCast S1x32 (x1 : S1x32.Idx → EReal) shapeCasts_S1x32_S1x32) broadcasts_S1x32_S10000x32 (ix2 p k) : EReal)) = _
  rw [shapeCast_self, shapeCast_self, broadcastTo_apply _ _ _ (ix2 (0 : Fin 1) k) (fun a => by
    match a with
    | ⟨0, _⟩ => rfl
    | ⟨1, _⟩ => rfl)]

/-- Input window 0's block at point `t` is rows 10000·t … of the array. -/
theorem iblk1_0_apply (c : Dev nD) (t : Fin cfg1.N) (p : Fin 10000) (k : Fin 32) (r : Fin 100000)
    (hr : r.val = t.val * 10000 + p.val) :
    (iblk1 V c 0 t : Vec Ideal S10000x32 .f32) (ix2 p k) = (V c main_v43 : S100000x32.Idx → EReal) (ix2 r k) := by
  obtain ⟨e0, e1, -⟩ := idx_facts t
  unfold iblk1
  rw [View.read_apply]
  show V c main_v43 _ = V c main_v43 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 32 + 1 * k.val = k.val; rw [e1]; omega

/-- Input window 1's block at every point is the whole bias row. -/
theorem iblk1_1_apply (c : Dev nD) (t : Fin cfg1.N) (k : Fin 32) :
    (iblk1 V c 1 t : Vec Ideal S1x32 .f32) (ix2 (0 : Fin 1) k) = (V c main_v44 : S1x32.Idx → EReal) (ix2 (0 : Fin 1) k) := by
  obtain ⟨-, -, e0, e1, -⟩ := idx_facts t
  unfold iblk1
  rw [View.read_apply]
  show V c main_v44 _ = V c main_v44 _
  congr 1
  funext a
  apply Fin.ext
  match a with
  | ⟨0, _⟩ => show win1_1.index t (0 : Fin 2) * 1 + 1 * 0 = 0; rw [e0]
  | ⟨1, _⟩ => show win1_1.index t (1 : Fin 2) * 32 + 1 * k.val = k.val; rw [e1]; omega

/-- Input window 2's block at every point is the whole matrix. -/
theorem iblk1_2_apply (c : Dev nD) (t : Fin cfg1.N) (k : Fin 32) (q : Fin 64) :
    (iblk1 V c 2 t : Vec Ideal S32x64 .f32) (ix2 k q) = (V c main_arg4 : S32x64.Idx → EReal) (ix2 k q) := by
  obtain ⟨-, -, -, -, e0, e1, -⟩ := idx_facts t
  unfold iblk1
  rw [View.read_apply]
  show V c main_arg4 _ = V c main_arg4 _
  congr 1
  funext a
  apply Fin.ext
  match a with
  | ⟨0, _⟩ => show win1_2.index t (0 : Fin 2) * 32 + 1 * k.val = k.val; rw [e0]; omega
  | ⟨1, _⟩ => show win1_2.index t (1 : Fin 2) * 64 + 1 * q.val = q.val; rw [e1]; omega

/-- The body's result at an entry of the block, as the stage's entry at the matching entry of the arrays: for any blocks
    that are rows `r0 …` of `A`, the bias row `B` and all of `W`. -/
theorem pay1_at (x0 : Vec Ideal S10000x32 .f32) (x1 : Vec Ideal S1x32 .f32) (x2 : Vec Ideal S32x64 .f32)
    (A : S100000x32.Idx → EReal) (B : S1x32.Idx → EReal) (W : S32x64.Idx → EReal) (r0 : Nat)
    (hx0 : ∀ (p : Fin 10000) (k : Fin 32) (r : Fin 100000), r.val = r0 + p.val → (x0 : S10000x32.Idx → EReal) (ix2 p k) = A (ix2 r k))
    (hx1 : ∀ k : Fin 32, (x1 : S1x32.Idx → EReal) (ix2 (0 : Fin 1) k) = B (ix2 (0 : Fin 1) k))
    (hx2 : ∀ (k : Fin 32) (q : Fin 64), (x2 : S32x64.Idx → EReal) (ix2 k q) = W (ix2 k q))
    (j : S10000x64.Idx) (i : S100000x64.Idx) (h0 : (i 0).val = r0 + (j 0).val) (h1 : (i 1).val = (j 1).val) :
    k1_pay1 x0 x1 x2 j = Cert.Entry.hid A (fun k => B (ix2 (0 : Fin 1) k)) W i := by
  obtain ⟨p, q, rfl⟩ : ∃ (p : Fin 10000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext h1
  subst hs
  rw [pay1_apply]
  unfold Cert.Entry.hid
  refine Finset.sum_congr rfl fun k _ => ?_
  rw [hx0 p k r h0, hx1 k, hx2 k s]

theorem flushed_eq (c : Dev nD) (t : Fin cfg1.N) :
    (dat1 V c).flushed 3 t = ((cfg1.win 3).blk t).view.read (Elt Ideal)
      (Cert.Entry.hid (V c main_v43) (fun k => (V c main_v44 : S1x32.Idx → EReal) (ix2 (0 : Fin 1) k)) (V c main_arg4)) := by
  show (cfg1.win 3).cut (grid1.coords t) ((dat1 V c).after 3 t) = _
  rw [after1_3]
  unfold out1_3
  rw [View.canon_unit_zero hz]
  simp only [View.ld_unit_zero (S := S10000x32) hz, View.ld_unit_zero (S := S1x32) hz, View.ld_unit_zero (S := S32x64) hz]
  funext j
  obtain ⟨-, -, -, -, -, -, e6, e7⟩ := idx_facts t
  refine pay1_at _ _ _ _ _ _ (t.val * 10000) (fun p k r hr => iblk1_0_apply V c t p k r hr) (fun k => iblk1_1_apply V c t k)
    (fun k q => iblk1_2_apply V c t k q) j _ ?_ ?_
  · show win1_3.index t (0 : Fin 2) * 10000 + 1 * (j 0).val = t.val * 10000 + (j 0).val
    rw [e6]; omega
  · show win1_3.index t (1 : Fin 2) * 64 + 1 * (j 1).val = (j 1).val
    rw [e7]; omega

theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- After the region the output array is lk (a + b) · W of the input arrays as the region found them. -/
theorem final (c : Dev nD) : (dat1 V c).arrAt 3 cfg1.N
    = Cert.Entry.hid (V c main_v43) (fun k => (V c main_v44 : S1x32.Idx → EReal) (ix2 (0 : Fin 1) k)) (V c main_arg4) :=
  (dat1 V c).arrAt_eq_of_cover 3 _ (fun t _ => flushed_eq V c t) fun i => by
    have hi0 : (i 0).val < 100000 := (i 0).isLt
    have hi1 : (i 1).val < 64 := (i 1).isLt
    have hN : cfg1.N = 10 := N_1
    refine ⟨⟨(i 0).val / 10000, by rw [hN]; omega⟩, flush1_3 _, ?_⟩
    rw [mem_blk]
    obtain ⟨-, -, -, -, -, -, e6, e7⟩ := idx_facts ⟨(i 0).val / 10000, by rw [hN]; omega⟩
    intro a
    match a with
    | ⟨0, _⟩ => show win1_3.index _ (0 : Fin 2) * 10000 ≤ (i 0).val ∧ (i 0).val < win1_3.index _ (0 : Fin 2) * 10000 + 10000; rw [e6]; show (i 0).val / 10000 * 10000 ≤ (i 0).val ∧ (i 0).val < (i 0).val / 10000 * 10000 + 10000; omega
    | ⟨1, _⟩ => show win1_3.index _ (1 : Fin 2) * 64 ≤ (i 1).val ∧ (i 1).val < win1_3.index _ (1 : Fin 2) * 64 + 64; rw [e7]; omega

end Cert.KernelIdeal.R1
end
-- ==== Proof.Region2.lean ====
/-
  The third region: logistic ([x | lk (a + b2)] · Wfc + bfc), computed 10 000 rows at a time.

  At grid point t the region reads rows 10000·t … of the 100 000 × 10 array x and of the 100 000 × 64 array a, the 1 × 64
  bias row, the whole 74 × 1 matrix and the 1 × 1 bias; it adds the bias row to a, applies the leaky rectifier, puts the
  ten columns of x before the sixty-four, multiplies by the matrix, adds the last bias and applies the logistic function,
  and writes the result back as rows 10000·t … of the 100 000 × 1 output.  Entry (r, 0) of the output is written by the
  point r / 10000 and depends on row r of x and of a only.
-/
import proofs.«173752_j1967095022252_1_alg».proof.Proof.Gen.KernelIdeal.Frame
import proofs.«173752_j1967095022252_1_alg».proof.Proof.LibPlainDot
import proofs.«173752_j1967095022252_1_alg».proof.Proof.Entry
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of ten columns followed by sixty-four, at column k. -/
theorem cat_apply (v11 : S10000x10.Idx → EReal) (f : S10000x64.Idx → EReal) (p : Fin 10000) (k : Fin 74) :
    concatenate S10000x74 1 [⟨S10000x10, v11⟩, ⟨S10000x64, f⟩] concatenates_S10000x10_S10000x64_S10000x74_d1 (ix2 p k)
    = Cert.Entry.cat (fun k => v11 (ix2 p k)) (fun k => f (ix2 p k)) k := by
  unfold Cert.Entry.cat
  by_cases h : k.val < 10
  · rw [dif_pos h]
    refine concatenate_pair_apply_left (t := S10000x74) (s₁ := S10000x10) (s₂ := S10000x64) (1 : Fin 2) v11 _ concatenates_S10000x10_S10000x64_S10000x74_d1 (ix2 p k) rfl (ix2 p (⟨k.val, h⟩ : Fin 10)) (fun b => ?_)
    match b with
    | ⟨0, _⟩ => rfl
    | ⟨1, _⟩ => rfl
  · rw [dif_neg h]
    have hk : k.val < 74 := k.isLt
    refine concatenate_pair_apply_right (t := S10000x74) (s₁ := S10000x10) (s₂ := S10000x64) (1 : Fin 2) v11 _ concatenates_S10000x10_S10000x64_S10000x74_d1 (ix2 p k) rfl rfl (ix2 p (⟨k.val - 10, by omega⟩ : Fin 64)) (fun b hb => ?_) ?_
    · match b with
      | ⟨0, _⟩ => rfl
      | ⟨1, _⟩ => exact absurd rfl hb
    · show k.val - 10 + 10 = k.val
      omega

/-- The body's result at an entry. -/
theorem pay2_apply (v0 : Vec Ideal S10000x64 .f32) (v2 : Vec Ideal S1x64 .f32) (v11 : Vec Ideal S10000x10 .f32)
    (v14 : Vec Ideal S74x1 .f32) (v17 : Vec Ideal S1x1 .f32) (p : Fin 10000) (q : Fin 1) :
    k2_pay1 v0 v2 v11 v14 v17 (ix2 p q)
      = Ideal.logistic ((∑ k : Fin 74, Cert.Entry.cat (fun k => (v11 : S10000x10.Idx → EReal) (ix2 p k))
            (fun k => Cert.Entry.lk ((v0 : S10000x64.Idx → EReal) (ix2 p k) + (v2 : S1x64.Idx → EReal) (ix2 (0 : Fin 1) k))) k
              * (v14 : S74x1.Idx → EReal) (ix2 k q))
          + (v17 : S1x1.Idx → EReal) (ix2 (0 : Fin 1) (0 : Fin 1))) := by
  unfold k2_pay1
  show Ideal.logistic ((FloatOps.matmul (F := Ideal) (DotDims.plain 10000 74 1) none _ _ (constant ⟨2, ![10000, 1]⟩ .f32 0x00000000#32) (ix2 p q) : EReal)
      + (broadcastTo S10000x1 (shapeCast S1x1 (v17 : S1x1.Idx → EReal) shapeCasts_S1x1_S1x1) broadcasts_S1x1_S10000x1 (ix2 p q) : EReal)) = _
  rw [Ideal.matmul_constant_zero_apply]
  rw [shapeCast_self (s := S1x1)]
  rw [broadcastTo_apply (s := S1x1) (t := S10000x1) _ _ (ix2 p q) (ix2 (0 : Fin 1) (0 : Fin 1)) (fun a => by
    match a with
    | ⟨0, _⟩ => rfl
    | ⟨1, _⟩ => rfl)]
  refine congrArg (fun s => Ideal.logistic (s + (v17 : S1x1.Idx → EReal) (ix2 (0 : Fin 1) (0 : Fin 1)))) ?_
  refine (Cert.PlainDot.contraction_eq _ _ p q).trans (Finset.sum_congr rfl fun k _ => ?_)
  refine congrArg (· * (v14 : S74x1.Idx → EReal) (ix2 k q)) ?_
  refine (cat_apply _ _ p k).trans ?_
  refine congrArg (fun g => Cert.Entry.cat (fun k => (v11 : S10000x10.Idx → EReal) (ix2 p k)) g k) (funext fun k' => ?_)
  show Cert.Entry.lk ((shapeCast S10000x64 (v0 : S10000x64.Idx → EReal) shapeCasts_S10000x64_S10000x64 (ix2 p k') : EReal)
      + (broadcastTo S10000x64 (shapeCast S1x64 (v2 : S1x64.Idx → EReal) shapeCasts_S1x64_S1x64) broadcasts_S1x64_S10000x64 (ix2 p k') : EReal)) = _
  rw [shapeCast_self, shapeCast_self, broadcastTo_apply _ _ _ (ix2 (0 : Fin 1) k') (fun a => by
    match a with
    | ⟨0, _⟩ => rfl
    | ⟨1, _⟩ => rfl)]

/-- Input window 0's block at point `t` is rows 10000·t … of x. -/
theorem iblk2_0_apply (c : Dev nD) (t : Fin cfg2.N) (p : Fin 10000) (k : Fin 10) (r : Fin 100000)
    (hr : r.val = t.val * 10000 + p.val) :
    (iblk2 V c 0 t : Vec Ideal S10000x10 .f32) (ix2 p k) = (V c main_arg0 : S100000x10.Idx → EReal) (ix2 r k) := by
  obtain ⟨e0, e1, -⟩ := idx_facts t
  unfold iblk2
  rw [View.read_apply]
  show V c main_arg0 _ = V c main_arg0 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 10 + 1 * k.val = k.val; rw [e1]; omega

/-- Input window 1's block at point `t` is rows 10000·t … of a. -/
theorem iblk2_1_apply (c : Dev nD) (t : Fin cfg2.N) (p : Fin 10000) (k : Fin 64) (r : Fin 100000)
    (hr : r.val = t.val * 10000 + p.val) :
    (iblk2 V c 1 t : Vec Ideal S10000x64 .f32) (ix2 p k) = (V c main_v58 : S100000x64.Idx → EReal) (ix2 r k) := by
  obtain ⟨-, -, e0, e1, -⟩ := idx_facts t
  unfold iblk2
  rw [View.read_apply]
  show V c main_v58 _ = V c main_v58 _
  congr 1
  funext a
  apply Fin.ext
  match a with
  | ⟨0, _⟩ => show win2_1.index t (0 : Fin 2) * 10000 + 1 * p.val = r.val; rw [e0, hr]; omega
  | ⟨1, _⟩ => show win2_1.index t (1 : Fin 2) * 64 + 1 * k.val = k.val; rw [e1]; omega

/-- Input window 2's block at every point is the whole bias row. -/
theorem iblk2_2_apply (c : Dev nD) (t : Fin cfg2.N) (k : Fin 64) :
    (iblk2 V c 2 t : Vec Ideal S1x64 .f32) (ix2 (0 : Fin 1) k) = (V c main_v59 : S1x64.Idx → EReal) (ix2 (0 : Fin 1) k) := by
  obtain ⟨-, -, -, -, e0, e1, -⟩ := idx_facts t
  unfold iblk2
  rw [View.read_apply]
  show V c main_v59 _ = V c main_v59 _
  congr 1
  funext a
  apply Fin.ext
  match a with
  | ⟨0, _⟩ => show win2_2.index t (0 : Fin 2) * 1 + 1 * 0 = 0; rw [e0]
  | ⟨1, _⟩ => show win2_2.index t (1 : Fin 2) * 64 + 1 * k.val = k.val; rw [e1]; omega

/-- Input window 3's block at every point is the whole matrix. -/
theorem iblk2_3_apply (c : Dev nD) (t : Fin cfg2.N) (k : Fin 74) (q : Fin 1) :
    (iblk2 V c 3 t : Vec Ideal S74x1 .f32) (ix2 k q) = (V c main_arg6 : S74x1.Idx → EReal) (ix2 k q) := by
  obtain ⟨-, -, -, -, -, -, e0, e1, -⟩ := idx_facts t
  unfold iblk2
  rw [View.read_apply]
  show V c main_arg6 _ = V c main_arg6 _
  congr 1
  funext a
  apply Fin.ext
  match a with
  | ⟨0, _⟩ => show win2_3.index t (0 : Fin 2) * 74 + 1 * k.val = k.val; rw [e0]; omega
  | ⟨1, _⟩ => show win2_3.index t (1 : Fin 2) * 1 + 1 * q.val = q.val; rw [e1]; omega

/-- Input window 4's block at every point is the 1 × 1 bias. -/
theorem iblk2_4_apply (c : Dev nD) (t : Fin cfg2.N) :
    (iblk2 V c 4 t : Vec Ideal S1x1 .f32) (ix2 (0 : Fin 1) (0 : Fin 1)) = (V c main_v60 : S1x1.Idx → EReal) (ix2 (0 : Fin 1) (0 : Fin 1)) := by
  obtain ⟨-, -, -, -, -, -, -, -, e0, e1, -⟩ := idx_facts t
  unfold iblk2
  rw [View.read_apply]
  show V c main_v60 _ = V c main_v60 _
  congr 1
  funext a
  apply Fin.ext
  match a with
  | ⟨0, _⟩ => show win2_4.index t (0 : Fin 2) * 1 + 1 * 0 = 0; rw [e0]
  | ⟨1, _⟩ => show win2_4.index t (1 : Fin 2) * 1 + 1 * 0 = 0; rw [e1]

/-- The stage's column, as a function of the 100 000 × 1 index. -/
def G2 (X : S100000x10.Idx → EReal) (A : S100000x64.Idx → EReal) (B : S1x64.Idx → EReal) (W : S74x1.Idx → EReal)
    (C : S1x1.Idx → EReal) : S100000x1.Idx → EReal :=
  fun i => Cert.Entry.outp X A (fun k => B (ix2 (0 : Fin 1) k)) W (C (ix2 (0 : Fin 1) (0 : Fin 1))) (i 0)

/-- The body's result at an entry of the block, as the stage's entry at the matching row of the arrays. -/
theorem pay2_at (v0 : Vec Ideal S10000x64 .f32) (v2 : Vec Ideal S1x64 .f32) (v11 : Vec Ideal S10000x10 .f32)
    (v14 : Vec Ideal S74x1 .f32) (v17 : Vec Ideal S1x1 .f32)
    (X : S100000x10.Idx → EReal) (A : S100000x64.Idx → EReal) (B : S1x64.Idx → EReal) (W : S74x1.Idx → EReal) (C : S1x1.Idx → EReal)
    (r0 : Nat)
    (hx : ∀ (p : Fin 10000) (k : Fin 10) (r : Fin 100000), r.val = r0 + p.val → (v11 : S10000x10.Idx → EReal) (ix2 p k) = X (ix2 r k))
    (ha : ∀ (p : Fin 10000) (k : Fin 64) (r : Fin 100000), r.val = r0 + p.val → (v0 : S10000x64.Idx → EReal) (ix2 p k) = A (ix2 r k))
    (hb : ∀ k : Fin 64, (v2 : S1x64.Idx → EReal) (ix2 (0 : Fin 1) k) = B (ix2 (0 : Fin 1) k))
    (hw : ∀ (k : Fin 74) (q : Fin 1), (v14 : S74x1.Idx → EReal) (ix2 k q) = W (ix2 k q))
    (hc : (v17 : S1x1.Idx → EReal) (ix2 (0 : Fin 1) (0 : Fin 1)) = C (ix2 (0 : Fin 1) (0 : Fin 1)))
    (j : S10000x1.Idx) (i : S100000x1.Idx) (h0 : (i 0).val = r0 + (j 0).val) :
    k2_pay1 v0 v2 v11 v14 v17 j = G2 X A B W C i := by
  obtain ⟨p, q, rfl⟩ : ∃ (p : Fin 10000) (q : Fin 1), j = ix2 p q := ⟨j 0, j 1, eq_ix2 j⟩
  obtain ⟨r, s, rfl⟩ : ∃ (r : Fin 100000) (s : Fin 1), i = ix2 r s := ⟨i 0, i 1, eq_ix2 i⟩
  have hq : q = 0 := Subsingleton.elim _ _
  subst hq
  rw [pay2_apply]
  unfold G2 Cert.Entry.outp
  have e1 : (fun k => (v11 : S10000x10.Idx → EReal) (ix2 p k)) = fun k => X (ix2 r k) := funext fun k => hx p k r h0
  have e2 : (fun k => Cert.Entry.lk ((v0 : S10000x64.Idx → EReal) (ix2 p k) + (v2 : S1x64.Idx → EReal) (ix2 (0 : Fin 1) k)))
      = fun k => Cert.Entry.lk (A (ix2 r k) + B (ix2 (0 : Fin 1) k)) := funext fun k => by rw [ha p k r h0, hb k]
  rw [e1, e2, hc]
  refine congrArg (fun s => Ideal.logistic (s + C (ix2 (0 : Fin 1) (0 : Fin 1)))) ?_
  exact Finset.sum_congr rfl fun k _ => by rw [hw k 0]

theorem flushed_eq (c : Dev nD) (t : Fin cfg2.N) :
    (dat2 V c).flushed 5 t = ((cfg2.win 5).blk t).view.read (Elt Ideal)
      (G2 (V c main_arg0) (V c main_v58) (V c main_v59) (V c main_arg6) (V c main_v60)) := by
  show (cfg2.win 5).cut (grid2.coords t) ((dat2 V c).after 5 t) = _
  rw [after2_5]
  unfold out2_5
  rw [View.canon_unit_zero hz]
  simp only [View.ld_unit_zero (S := S10000x10) hz, View.ld_unit_zero (S := S10000x64) hz, View.ld_unit_zero (S := S1x64) hz,
    View.ld_unit_zero (S := S74x1) hz, View.ld_unit_zero (S := S1x1) hz]
  funext j
  obtain ⟨-, -, -, -, -, -, -, -, -, -, e10, e11⟩ := idx_facts t
  refine pay2_at _ _ _ _ _ _ _ _ _ _ (t.val * 10000) (fun p k r hr => iblk2_0_apply V c t p k r hr)
    (fun p k r hr => iblk2_1_apply V c t p k r hr) (fun k => iblk2_2_apply V c t k) (fun k q => iblk2_3_apply V c t k q)
    (iblk2_4_apply V c t) j _ ?_
  show win2_5.index t (0 : Fin 2) * 10000 + 1 * (j 0).val = t.val * 10000 + (j 0).val
  rw [e10]; omega

theorem mem_blk (t : Fin cfg2.N) (i : S100000x1.Idx) :
    i ∈ ((cfg2.win 5).blk t).view.set ↔ ∀ a : Fin 2, win2_5.index t a * S10000x1.size a ≤ (i a).val ∧ (i a).val < win2_5.index t a * S10000x1.size a + S10000x1.size a := by
  show i ∈ ((View.whole main_v61).slice (win2_5.rect t)).set ↔ _
  rw [View.set_slice_whole, Rect.mem_set_unit]
  exact Iff.rfl

/-- After the region the output column is the last stage of the input arrays as the region found them. -/
theorem final (c : Dev nD) : (dat2 V c).arrAt 5 cfg2.N
    = G2 (V c main_arg0) (V c main_v58) (V c main_v59) (V c main_arg6) (V c main_v60) :=
  (dat2 V c).arrAt_eq_of_cover 5 _ (fun t _ => flushed_eq V c t) fun i => by
    have hi0 : (i 0).val < 100000 := (i 0).isLt
    have hi1 : (i 1).val < 1 := (i 1).isLt
    have hN : cfg2.N = 10 := N_2
    refine ⟨⟨(i 0).val / 10000, by rw [hN]; omega⟩, flush2_5 _, ?_⟩
    rw [mem_blk]
    obtain ⟨-, -, -, -, -, -, -, -, -, -, e10, e11⟩ := idx_facts ⟨(i 0).val / 10000, by rw [hN]; omega⟩
    intro a
    match a with
    | ⟨0, _⟩ => show win2_5.index _ (0 : Fin 2) * 10000 ≤ (i 0).val ∧ (i 0).val < win2_5.index _ (0 : Fin 2) * 10000 + 10000; rw [e10]; show (i 0).val / 10000 * 10000 ≤ (i 0).val ∧ (i 0).val < (i 0).val / 10000 * 10000 + 10000; omega
    | ⟨1, _⟩ => show win2_5.index _ (1 : Fin 2) * 1 ≤ (i 1).val ∧ (i 1).val < win2_5.index _ (1 : Fin 2) * 1 + 1; rw [e11]; omega

end Cert.KernelIdeal.R2
end
-- ==== Proof.KValue.lean ====
/-
  The kernel program's result as one function of its eight arguments.

  Boundary by boundary: the first region leaves x · W1; the host stretch after it forms the weighted neighbourhood sums
  of that table; the second region leaves lk (· + b1) · W2 of those sums (the bias row it reads is b1 reshaped to one
  row, whose entry (0, k) is b1 at k); the next stretch forms the weighted neighbourhood sums of that table; the third
  region leaves, at row r, the logistic of row r of [x | lk (· + b2)] times Wfc plus bfc; and the last host operation
  reads the resulting 100 000 × 1 column as a vector, whose entry r is the column's entry (r, 0).
-/
import proofs.«173752_j1967095022252_1_alg».proof.Proof.KHost
import proofs.«173752_j1967095022252_1_alg».proof.Proof.Region0
import proofs.«173752_j1967095022252_1_alg».proof.Proof.Region1
import proofs.«173752_j1967095022252_1_alg».proof.Proof.Region2

set_option maxRecDepth 16384

noncomputable section

open Idealize.ShloMosaic Idealize.ShloMosaic.TcCoe Idealize.SL.Sem Idealize.ShloMosaic.ValueIdx
open scoped BigOperators

namespace Cert.KernelIdeal.KValue

open Cert.KernelIdeal Cert.KernelIdeal.Gen

variable (m : (ℓ : Loc nD τ sig) → Buf (Elt Ideal) ℓ) (ρ : Dev nD → PrngReg)

/-- The source list of the edge-list argument. -/
abbrev row (c : Dev nD) : (⟨S1700000, .i32⟩ : BufTy).Contents (Elt Ideal) := Spec.rowIdx (m ((c : Thread nD τ).loc main_arg1))
/-- The target list of the edge-list argument. -/
abbrev col (c : Dev nD) : (⟨S1700000, .i32⟩ : BufTy).Contents (Elt Ideal) := Spec.colIdx (m ((c : Thread nD τ).loc main_arg1))
/-- The edge weights of the edge-list argument. -/
abbrev wts (c : Dev nD) : (⟨S1700000, .f32⟩ : BufTy).Contents (Elt Ideal) := Spec.normOf (row m c) (col m c)

/-- After the first region: x · W1. -/
theorem W4_v30 (c : Dev nD) : W4 m ρ c (Proc.devRef .tc main_v30)
    = Cert.Entry.mm1 (m ((c : Thread nD τ).loc main_arg0)) (m ((c : Thread nD τ).loc main_arg2)) := by
  refine (W4_arr m ρ c 2).trans ((R0.final (V3 m ρ) c).trans ?_)
  show Cert.Entry.mm1 (W3 m ρ c (Proc.devRef .tc main_arg0)) (W3 m ρ c (Proc.devRef .tc main_arg2)) = _
  rw [KHost.W3_arg0, KHost.W3_arg2]

/-- Before the second region: the first aggregation. -/
theorem W5_v43 (c : Dev nD) : W5 m ρ c (Proc.devRef .tc main_v43)
    = Spec.agg32 (Cert.Entry.mm1 (m ((c : Thread nD τ).loc main_arg0)) (m ((c : Thread nD τ).loc main_arg2))) (row m c) (col m c) (wts m c) := by
  rw [KHost.W5_v43, W4_v30, KHost.W4_v3, KHost.W4_v6, KHost.W4_v29, KHost.W3_row, KHost.W3_col, KHost.W3_norm]

/-- The bias row the second region reads, at (0, k), is b1 at k. -/
theorem W5_v44_apply (c : Dev nD) (k : Fin 32) :
    (W5 m ρ c (Proc.devRef .tc main_v44) : S1x32.Idx → EReal) (ix2 (0 : Fin 1) k)
      = (m ((c : Thread nD τ).loc main_arg3) : S32.Idx → EReal) (ix1 k) := by
  rw [KHost.W5_v44]
  show shapeCast S1x32 (W4 m ρ c (Proc.devRef .tc main_arg3)) shapeCasts_S32_S1x32 (ix2 (0 : Fin 1) k) = _
  rw [shapeCast_apply _ _ (ix2 (0 : Fin 1) k) (ix1 k) (by
    rw [Shape.rowMajor_val_two, Shape.rowMajor_val_one]
    show k.val = 0 * 32 + k.val
    omega), KHost.W4_arg3, KHost.W3_arg3]

theorem W5_arg4' (c : Dev nD) : W5 m ρ c (Proc.devRef .tc main_arg4) = m ((c : Thread nD τ).loc main_arg4) := by
  rw [KHost.W5_arg4, KHost.W4_arg4, KHost.W3_arg4]

/-- After the second region: lk (first aggregation + b1) · W2. -/
theorem W6_v45 (c : Dev nD) : W6 m ρ c (Proc.devRef .tc main_v45)
    = Cert.Entry.hid (Spec.agg32 (Cert.Entry.mm1 (m ((c : Thread nD τ).loc main_arg0)) (m ((c : Thread nD τ).loc main_arg2))) (row m c) (col m c) (wts m c))
        (fun k => (m ((c : Thread nD τ).loc main_arg3) : S32.Idx → EReal) (ix1 k)) (m ((c : Thread nD τ).loc main_arg4)) := by
  refine (W6_arr m ρ c 3).trans ((R1.final (V5 m ρ) c).trans ?_)
  show Cert.Entry.hid (W5 m ρ c (Proc.devRef .tc main_v43))
      (fun k => (W5 m ρ c (Proc.devRef .tc main_v44) : S1x32.Idx → EReal) (ix2 (0 : Fin 1) k)) (W5 m ρ c (Proc.devRef .tc main_arg4)) = _
  rw [W5_v43, W5_arg4', funext (W5_v44_apply m ρ c)]

/-- Before the third region: the second aggregation. -/
theorem W7_v58 (c : Dev nD) : W7 m ρ c (Proc.devRef .tc main_v58)
    = Spec.agg64 (Cert.Entry.hid (Spec.agg32 (Cert.Entry.mm1 (m ((c : Thread nD τ).loc main_arg0)) (m ((c : Thread nD τ).loc main_arg2))) (row m c) (col m c) (wts m c))
        (fun k => (m ((c : Thread nD τ).loc main_arg3) : S32.Idx → EReal) (ix1 k)) (m ((c : Thread nD τ).loc main_arg4))) (row m c) (col m c) (wts m c) := by
  rw [KHost.W7_v58, W6_v45, KHost.W6_v3, KHost.W6_v6, KHost.W6_v29, KHost.W5_v3, KHost.W5_v6, KHost.W5_v29,
    KHost.W4_v3, KHost.W4_v6, KHost.W4_v29, KHost.W3_row, KHost.W3_col, KHost.W3_norm]

/-- The bias row the third region reads, at (0, k), is b2 at k. -/
theorem W7_v59_apply (c : Dev nD) (k : Fin 64) :
    (W7 m ρ c (Proc.devRef .tc main_v59) : S1x64.Idx → EReal) (ix2 (0 : Fin 1) k)
      = (m ((c : Thread nD τ).loc main_arg5) : S64.Idx → EReal) (ix1 k) := by
  rw [KHost.W7_v59]
  show shapeCast S1x64 (W6 m ρ c (Proc.devRef .tc main_arg5)) shapeCasts_S64_S1x64 (ix2 (0 : Fin 1) k) = _
  rw [shapeCast_apply _ _ (ix2 (0 : Fin 1) k) (ix1 k) (by
    rw [Shape.rowMajor_val_two, Shape.rowMajor_val_one]
    show k.val = 0 * 64 + k.val
    omega), KHost.W6_arg5, KHost.W5_arg5, KHost.W4_arg5, KHost.W3_arg5]

/-- The 1 × 1 bias the third region reads is bfc. -/
theorem W7_v60_apply (c : Dev nD) :
    (W7 m ρ c (Proc.devRef .tc main_v60) : S1x1.Idx → EReal) (ix2 (0 : Fin 1) (0 : Fin 1))
      = (m ((c : Thread nD τ).loc main_arg7) : S1.Idx → EReal) (ix1 (0 : Fin 1)) := by
  rw [KHost.W7_v60]
  show shapeCast S1x1 (W6 m ρ c (Proc.devRef .tc main_arg7)) shapeCasts_S1_S1x1 (ix2 (0 : Fin 1) (0 : Fin 1)) = _
  rw [shapeCast_apply _ _ (ix2 (0 : Fin 1) (0 : Fin 1)) (ix1 (0 : Fin 1)) (by
    rw [Shape.rowMajor_val_two, Shape.rowMajor_val_one]
    rfl), KHost.W6_arg7, KHost.W5_arg7, KHost.W4_arg7, KHost.W3_arg7]

theorem W7_arg0' (c : Dev nD) : W7 m ρ c (Proc.devRef .tc main_arg0) = m ((c : Thread nD τ).loc main_arg0) := by
  rw [KHost.W7_arg0, KHost.W6_arg0, KHost.W5_arg0, KHost.W4_arg0, KHost.W3_arg0]

theorem W7_arg6' (c : Dev nD) : W7 m ρ c (Proc.devRef .tc main_arg6) = m ((c : Thread nD τ).loc main_arg6) := by
  rw [KHost.W7_arg6, KHost.W6_arg6, KHost.W5_arg6, KHost.W4_arg6, KHost.W3_arg6]

/-- The kernel program's result, row by row. -/
def kernelOut (c : Dev nD) : S100000.Idx → EReal := fun i =>
  Cert.Entry.outp (m ((c : Thread nD τ).loc main_arg0))
    (Spec.agg64 (Cert.Entry.hid (Spec.agg32 (Cert.Entry.mm1 (m ((c : Thread nD τ).loc main_arg0)) (m ((c : Thread nD τ).loc main_arg2))) (row m c) (col m c) (wts m c))
        (fun k => (m ((c : Thread nD τ).loc main_arg3) : S32.Idx → EReal) (ix1 k)) (m ((c : Thread nD τ).loc main_arg4))) (row m c) (col m c) (wts m c))
    (fun k => (m ((c : Thread nD τ).loc main_arg5) : S64.Idx → EReal) (ix1 k)) (m ((c : Thread nD τ).loc main_arg6))
    ((m ((c : Thread nD τ).loc main_arg7) : S1.Idx → EReal) (ix1 (0 : Fin 1))) (i 0)

/-- After the third region: the last stage as a column. -/
theorem W8_v61_apply (c : Dev nD) (r : Fin 100000) :
    (W8 m ρ c (Proc.devRef .tc main_v61) : S100000x1.Idx → EReal) (ix2 r (0 : Fin 1)) = kernelOut m c (ix1 r) := by
  rw [(W8_arr m ρ c 5).trans (R2.final (V7 m ρ) c)]
  show Cert.Entry.outp (W7 m ρ c (Proc.devRef .tc main_arg0)) (W7 m ρ c (Proc.devRef .tc main_v58))
      (fun k => (W7 m ρ c (Proc.devRef .tc main_v59) : S1x64.Idx → EReal) (ix2 (0 : Fin 1) k)) (W7 m ρ c (Proc.devRef .tc main_arg6))
      ((W7 m ρ c (Proc.devRef .tc main_v60) : S1x1.Idx → EReal) (ix2 (0 : Fin 1) (0 : Fin 1))) r = _
  rw [W7_arg0', W7_v58, W7_arg6', W7_v60_apply, funext (W7_v59_apply m ρ c)]
  rfl

/-- The result buffer's last contents are `kernelOut`. -/
theorem W9_v62 (c : Dev nD) : W9 m ρ c (Proc.devRef .tc main_v62) = kernelOut m c := by
  rw [KHost.W9_v62]
  funext i
  obtain ⟨r, rfl⟩ : ∃ r : Fin 100000, i = ix1 r := ⟨i 0, eq_ix1 i⟩
  show shapeCast S100000 (W8 m ρ c (Proc.devRef .tc main_v61)) shapeCasts_S100000x1_S100000 (ix1 r) = _
  rw [shapeCast_apply _ _ (ix1 r) (ix2 r (0 : Fin 1)) (by
    rw [Shape.rowMajor_val_two, Shape.rowMajor_val_one]
    show r.val * 1 + 0 = r.val
    omega), W8_v61_apply]

end Cert.KernelIdeal.KValue

end
-- ==== Proof.RefRun.lean ====
/-
  The reference program's run, as a straight line of host operations.

  @main is 143 operations in order: its own 123 and, at each of its four calls, the callee's (three for a `where` with a
  scalar alternative, seven for a leaky rectifier, the last of them its inner `where`). The line is cut into ten
  stretches, each computing one stage of the network from the buffers the stretches before it filled; the contents of
  the buffers after the whole line are the stretches' folds composed.
-/
import proofs.«173752_j1967095022252_1_alg».proof.Proof.Gen.ReferenceIdeal
import proofs.«173752_j1967095022252_1_alg».proof.Proof.LibHostRead
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The source list, the target list and x · W1. -/
def opsA : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_arg0 main_arg2 main_v7 ((fun l r => Host.dotGeneral dot_S100000x10_S10x32_S100000x32_1_0_0_1_n_n none l r) : (⟨S100000x10, .f32⟩ : BufTy).Contents (Elt F) → (⟨S10x32, .f32⟩ : BufTy).Contents (Elt F) → (⟨S100000x32, .f32⟩ : BufTy).Contents (Elt F)) ]

/-- The first layer's edge weights: the degrees by scatter-add of ones, d^(-1/2) with 0 where the degree is not positive, gathered at the sources and at the targets and multiplied. -/
def opsB : List (HloOp τ sig (Elt F)) :=
  [ StableHlo.nullary main_cst (constant S_ .f32 0x3F800000#32),
    StableHlo.unary main_cst main_v8 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    TRef.unary (.of main_cst_2) main_call0.v0 id,
    TRef.unary main_call0.v0 main_call0.v1 (broadcastInDim S100000 ![] bcast_S_S100000),
    TRef.ternary (.of main_v13) (.of main_v14) main_call0.v1 main_call0.v2 select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v3 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v18 (broadcastInDim S1700000 ![] bcast_S_S1700000 : (⟨S_, .i32⟩ : BufTy).Contents (Elt F) → (⟨S1700000, .i32⟩ : BufTy).Contents (Elt F)),
    StableHlo.binary main_v3 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)) ]

/-- The first layer's weighted neighbourhood sums of x · W1. -/
def opsC : List (HloOp τ sig (Elt F)) :=
  [ StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v3 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v7 main_v36 main_v37 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v30 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v37 main_v39 main_v40 (mulf : (⟨S1700000x32, .f32⟩ : BufTy).Contents (Elt F) → (⟨S1700000x32, .f32⟩ : BufTy).Contents (Elt F) → (⟨S1700000x32, .f32⟩ : BufTy).Contents (Elt F)),
    StableHlo.nullary main_cst_8 (constant S_ .f32 0x00000000#32),
    StableHlo.unary main_cst_8 main_v41 (broadcastInDim S100000x32 ![] bcast_S_S100000x32 : (⟨S_, .f32⟩ : BufTy).Contents (Elt F) → (⟨S100000x32, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)) ]

/-- The first layer's bias and leaky rectifier. -/
def opsD : List (HloOp τ sig (Elt F)) :=
  [ StableHlo.unary main_arg3 main_v44 (broadcastInDim S1x32 ![1] bcast_S32_S1x32_1 : (⟨S32, .f32⟩ : BufTy).Contents (Elt F) → (⟨S1x32, .f32⟩ : BufTy).Contents (Elt F)),
    StableHlo.unary main_v44 main_v45 (broadcastInDim S100000x32 ![0, 1] bcast_S1x32_S100000x32_0_1 : (⟨S1x32, .f32⟩ : BufTy).Contents (Elt F) → (⟨S100000x32, .f32⟩ : BufTy).Contents (Elt F)),
    StableHlo.binary main_v43 main_v45 main_v46 (addf : (⟨S100000x32, .f32⟩ : BufTy).Contents (Elt F) → (⟨S100000x32, .f32⟩ : BufTy).Contents (Elt F) → (⟨S100000x32, .f32⟩ : BufTy).Contents (Elt F)),
    StableHlo.nullary main_cst_9 (constant S_ .f32 0x3C23D70A#32),
    TRef.nullary main_call1.cst (constant S_ .f32 0x00000000#32),
    TRef.unary main_call1.cst main_call1.v0 (broadcastInDim S100000x32 ![] bcast_S_S100000x32),
    TRef.binary (.of main_v46) main_call1.v0 main_call1.v1 (cmpf .oge),
    TRef.unary (.of main_cst_9) main_call1.v2 id,
    TRef.unary main_call1.v2 main_call1.v3 (broadcastInDim S100000x32 ![] bcast_S_S100000x32),
    TRef.binary main_call1.v3 (.of main_v46) main_call1.v4 mulf,
    TRef.ternary main_call1.v1 (.of main_v46) main_call1.v4 main_call1.call0.v0 select ]

/-- h1 · W2. -/
def opsE : List (HloOp τ sig (Elt F)) :=
  [ StableHlo.binary main_v47 main_arg4 main_v48 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) ]

/-- The second layer's edge weights, computed again from the same lists. -/
def opsFs : List (HloOp τ sig (Elt F)) :=
  [ StableHlo.nullary main_cst_10 (constant S_ .f32 0x3F800000#32),
    StableHlo.unary main_cst_10 main_v49 (broadcastInDim S1700000 ![] bcast_S_S1700000 : (⟨S_, .f32⟩ : BufTy).Contents (Elt F) → (⟨S1700000, .f32⟩ : BufTy).Contents (Elt F)),
    StableHlo.nullary main_cst_11 (constant S_ .f32 0x00000000#32),
    StableHlo.unary main_cst_11 main_v50 (broadcastInDim S100000 ![] bcast_S_S100000 : (⟨S_, .f32⟩ : BufTy).Contents (Elt F) → (⟨S100000, .f32⟩ : BufTy).Contents (Elt F)),
    StableHlo.unary main_v6 main_v51 (broadcastInDim S1700000x1 ![0] bcast_S1700000_S1700000x1_0 : (⟨S1700000, .i32⟩ : BufTy).Contents (Elt F) → (⟨S1700000x1, .i32⟩ : BufTy).Contents (Elt F)),
    StableHlo.ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_12 (constant S_ .f32 0x00000000#32),
    StableHlo.unary main_cst_12 main_v53 (broadcastInDim S100000 ![] bcast_S_S100000 : (⟨S_, .f32⟩ : BufTy).Contents (Elt F) → (⟨S100000, .f32⟩ : BufTy).Contents (Elt F)),
    StableHlo.binary main_v52 main_v53 main_v54 (cmpf .ogt : (⟨S100000, .f32⟩ : BufTy).Contents (Elt F) → (⟨S100000, .f32⟩ : BufTy).Contents (Elt F) → (⟨S100000, .i1⟩ : BufTy).Contents (Elt F)),
    StableHlo.unary main_v52 main_v55 (Host.rsqrt : (⟨S100000, .f32⟩ : BufTy).Contents (Elt F) → (⟨S100000, .f32⟩ : BufTy).Contents (Elt F)),
    StableHlo.nullary main_cst_13 (constant S_ .f32 0x00000000#32),
    TRef.unary (.of main_cst_13) main_call2.v0 id,
    TRef.unary main_call2.v0 main_call2.v1 (broadcastInDim S100000 ![] bcast_S_S100000),
    TRef.ternary (.of main_v54) (.of main_v55) main_call2.v1 main_call2.v2 select,
    StableHlo.nullary main_c_14 (constantI S_ 32 0#32),
    StableHlo.unary main_c_14 main_v57 (broadcastInDim S1700000 ![] bcast_S_S1700000 : (⟨S_, .i32⟩ : BufTy).Contents (Elt F) → (⟨S1700000, .i32⟩ : BufTy).Contents (Elt F)),
    StableHlo.binary main_v3 main_v57 main_v58 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v59 (broadcastInDim S1700000 ![] bcast_S_S1700000 : (⟨S_, .i32⟩ : BufTy).Contents (Elt F) → (⟨S1700000, .i32⟩ : BufTy).Contents (Elt F)),
    StableHlo.binary main_v3 main_v59 main_v60 (addi : (⟨S1700000, .i32⟩ : BufTy).Contents (Elt F) → (⟨S1700000, .i32⟩ : BufTy).Contents (Elt F) → (⟨S1700000, .i32⟩ : BufTy).Contents (Elt F)),
    StableHlo.ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v61 main_v62 (broadcastInDim S1700000x1 ![0] bcast_S1700000_S1700000x1_0 : (⟨S1700000, .i32⟩ : BufTy).Contents (Elt F) → (⟨S1700000x1, .i32⟩ : BufTy).Contents (Elt F)),
    StableHlo.binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_16 (constantI S_ 32 0#32),
    StableHlo.unary main_c_16 main_v64 (broadcastInDim S1700000 ![] bcast_S_S1700000 : (⟨S_, .i32⟩ : BufTy).Contents (Elt F) → (⟨S1700000, .i32⟩ : BufTy).Contents (Elt F)),
    StableHlo.binary main_v6 main_v64 main_v65 (cmpi .slt : (⟨S1700000, .i32⟩ : BufTy).Contents (Elt F) → (⟨S1700000, .i32⟩ : BufTy).Contents (Elt F) → (⟨S1700000, .i1⟩ : BufTy).Contents (Elt F)),
    StableHlo.nullary main_c_17 (constantI S_ 32 100000#32),
    StableHlo.unary main_c_17 main_v66 (broadcastInDim S1700000 ![] bcast_S_S1700000 : (⟨S_, .i32⟩ : BufTy).Contents (Elt F) → (⟨S1700000, .i32⟩ : BufTy).Contents (Elt F)),
    StableHlo.binary main_v6 main_v66 main_v67 (addi : (⟨S1700000, .i32⟩ : BufTy).Contents (Elt F) → (⟨S1700000, .i32⟩ : BufTy).Contents (Elt F) → (⟨S1700000, .i32⟩ : BufTy).Contents (Elt F)),
    StableHlo.ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v68 main_v69 (broadcastInDim S1700000x1 ![0] bcast_S1700000_S1700000x1_0 : (⟨S1700000, .i32⟩ : BufTy).Contents (Elt F) → (⟨S1700000x1, .i32⟩ : BufTy).Contents (Elt F)),
    StableHlo.binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v63 main_v70 main_v71 (mulf : (⟨S1700000, .f32⟩ : BufTy).Contents (Elt F) → (⟨S1700000, .f32⟩ : BufTy).Contents (Elt F) → (⟨S1700000, .f32⟩ : BufTy).Contents (Elt F)) ]

/-- The second layer's weighted neighbourhood sums of h1 · W2. -/
def opsG : List (HloOp τ sig (Elt F)) :=
  [ StableHlo.nullary main_c_18 (constantI S_ 32 0#32),
    StableHlo.unary main_c_18 main_v72 (broadcastInDim S1700000 ![] bcast_S_S1700000 : (⟨S_, .i32⟩ : BufTy).Contents (Elt F) → (⟨S1700000, .i32⟩ : BufTy).Contents (Elt F)),
    StableHlo.binary main_v3 main_v72 main_v73 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v74 (broadcastInDim S1700000 ![] bcast_S_S1700000 : (⟨S_, .i32⟩ : BufTy).Contents (Elt F) → (⟨S1700000, .i32⟩ : BufTy).Contents (Elt F)),
    StableHlo.binary main_v3 main_v74 main_v75 (addi : (⟨S1700000, .i32⟩ : BufTy).Contents (Elt F) → (⟨S1700000, .i32⟩ : BufTy).Contents (Elt F) → (⟨S1700000, .i32⟩ : BufTy).Contents (Elt F)),
    StableHlo.ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v76 main_v77 (broadcastInDim S1700000x1 ![0] bcast_S1700000_S1700000x1_0 : (⟨S1700000, .i32⟩ : BufTy).Contents (Elt F) → (⟨S1700000x1, .i32⟩ : BufTy).Contents (Elt F)),
    StableHlo.binary main_v48 main_v77 main_v78 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v71 main_v79 (broadcastInDim S1700000x1 ![0] bcast_S1700000_S1700000x1_0 : (⟨S1700000, .f32⟩ : BufTy).Contents (Elt F) → (⟨S1700000x1, .f32⟩ : BufTy).Contents (Elt F)),
    StableHlo.unary main_v79 main_v80 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v78 main_v80 main_v81 (mulf : (⟨S1700000x64, .f32⟩ : BufTy).Contents (Elt F) → (⟨S1700000x64, .f32⟩ : BufTy).Contents (Elt F) → (⟨S1700000x64, .f32⟩ : BufTy).Contents (Elt F)),
    StableHlo.nullary main_cst_20 (constant S_ .f32 0x00000000#32),
    StableHlo.unary main_cst_20 main_v82 (broadcastInDim S100000x64 ![] bcast_S_S100000x64 : (⟨S_, .f32⟩ : BufTy).Contents (Elt F) → (⟨S100000x64, .f32⟩ : BufTy).Contents (Elt F)),
    StableHlo.unary main_v6 main_v83 (broadcastInDim S1700000x1 ![0] bcast_S1700000_S1700000x1_0 : (⟨S1700000, .i32⟩ : BufTy).Contents (Elt F) → (⟨S1700000x1, .i32⟩ : BufTy).Contents (Elt F)),
    StableHlo.ternary main_v82 main_v83 main_v81 main_v84 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The second layer's bias and leaky rectifier. -/
def opsH : List (HloOp τ sig (Elt F)) :=
  [ StableHlo.unary main_arg5 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v86 main_v87 (addf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3C23D70A#32),
    TRef.nullary main_call3.cst (constant S_ .f32 0x00000000#32),
    TRef.unary main_call3.cst main_call3.v0 (broadcastInDim S100000x64 ![] bcast_S_S100000x64),
    TRef.binary (.of main_v87) main_call3.v0 main_call3.v1 (cmpf .oge),
    TRef.unary (.of main_cst_21) main_call3.v2 id,
    TRef.unary main_call3.v2 main_call3.v3 (broadcastInDim S100000x64 ![] bcast_S_S100000x64),
    TRef.binary main_call3.v3 (.of main_v87) main_call3.v4 mulf,
    TRef.ternary main_call3.v1 (.of main_v87) main_call3.v4 main_call3.call0.v0 select ]

/-- The head: [x | h2] · Wfc + bfc as a vector, negated. -/
def opsI : List (HloOp τ sig (Elt F)) :=
  [ StableHlo.binary main_arg0 main_v88 main_v89 ((fun a b => concatenate S100000x74 1 [⟨S100000x10, a⟩, ⟨S100000x64, b⟩] concatenates_S100000x10_S100000x64_S100000x74_d1) : (⟨S100000x10, .f32⟩ : BufTy).Contents (Elt F) → (⟨S100000x64, .f32⟩ : BufTy).Contents (Elt F) → (⟨S100000x74, .f32⟩ : BufTy).Contents (Elt F)),
    StableHlo.binary main_v89 main_arg6 main_v90 ((fun l r => Host.dotGeneral dot_S100000x74_S74x1_S100000x1_1_0_0_1_n_n none l r) : (⟨S100000x74, .f32⟩ : BufTy).Contents (Elt F) → (⟨S74x1, .f32⟩ : BufTy).Contents (Elt F) → (⟨S100000x1, .f32⟩ : BufTy).Contents (Elt F)),
    StableHlo.unary main_arg7 main_v91 (broadcastInDim S1x1 ![1] bcast_S1_S1x1_1 : (⟨S1, .f32⟩ : BufTy).Contents (Elt F) → (⟨S1x1, .f32⟩ : BufTy).Contents (Elt F)),
    StableHlo.unary main_v91 main_v92 (broadcastInDim S100000x1 ![0, 1] bcast_S1x1_S100000x1_0_1 : (⟨S1x1, .f32⟩ : BufTy).Contents (Elt F) → (⟨S100000x1, .f32⟩ : BufTy).Contents (Elt F)),
    StableHlo.binary main_v90 main_v92 main_v93 (addf : (⟨S100000x1, .f32⟩ : BufTy).Contents (Elt F) → (⟨S100000x1, .f32⟩ : BufTy).Contents (Elt F) → (⟨S100000x1, .f32⟩ : BufTy).Contents (Elt F)),
    StableHlo.reshape main_v93 main_v94 rfl shapeCasts_S100000x1_S100000,
    StableHlo.unary main_v94 main_v95 (Host.negf : (⟨S100000, .f32⟩ : BufTy).Contents (Elt F) → (⟨S100000, .f32⟩ : BufTy).Contents (Elt F)) ]

/-- The head's 1 / (1 + exp ·). -/
def opsJ : List (HloOp τ sig (Elt F)) :=
  [ StableHlo.unary main_v95 main_v96 (Host.exp : (⟨S100000, .f32⟩ : BufTy).Contents (Elt F) → (⟨S100000, .f32⟩ : BufTy).Contents (Elt F)),
    StableHlo.nullary main_cst_22 (constant S_ .f32 0x3F800000#32),
    StableHlo.unary main_cst_22 main_v97 (broadcastInDim S100000 ![] bcast_S_S100000 : (⟨S_, .f32⟩ : BufTy).Contents (Elt F) → (⟨S100000, .f32⟩ : BufTy).Contents (Elt F)),
    StableHlo.binary main_v97 main_v96 main_v98 (addf : (⟨S100000, .f32⟩ : BufTy).Contents (Elt F) → (⟨S100000, .f32⟩ : BufTy).Contents (Elt F) → (⟨S100000, .f32⟩ : BufTy).Contents (Elt F)),
    StableHlo.nullary main_cst_23 (constant S_ .f32 0x3F800000#32),
    StableHlo.unary main_cst_23 main_v99 (broadcastInDim S100000 ![] bcast_S_S100000 : (⟨S_, .f32⟩ : BufTy).Contents (Elt F) → (⟨S100000, .f32⟩ : BufTy).Contents (Elt F)),
    StableHlo.binary main_v99 main_v98 main_v100 (Host.divf : (⟨S100000, .f32⟩ : BufTy).Contents (Elt F) → (⟨S100000, .f32⟩ : BufTy).Contents (Elt F) → (⟨S100000, .f32⟩ : BufTy).Contents (Elt F)) ]

/-- The operations of @main's first window. -/
abbrev ops0 : List (HloOp τ sig (Elt F)) := opsA ++ (opsB ++ (opsC ++ opsD))
/-- The operations of @main's second window. -/
abbrev ops1 : List (HloOp τ sig (Elt F)) := opsE ++ (opsFs ++ (opsG ++ (opsH ++ opsI)))
/-- @main's operations, in order. -/
abbrev ops : List (HloOp τ sig (Elt F)) := ops0 ++ (ops1 ++ opsJ)

/-! ## @main is that line -/

set_option maxRecDepth 4096 in
/-- The first window is its 68 operations in order: the two callees unfolded at their calls and the records at their
    fields, sequencing reassociated. -/
theorem part0_eq (c : Dev nD) : main_part0 (F := F) c = seq ops0 := by
  simp only [main_part0, fn_where.body, fn_leaky_relu.body, fn_where_0.body, ops0, opsA, opsB, opsC, opsD,
    List.cons_append, List.nil_append, seq, bind_assoc, pure_bind] <;> rfl

set_option maxRecDepth 4096 in
/-- The second window is its 68 operations in order. -/
theorem part1_eq (c : Dev nD) : main_part1 (F := F) c = seq ops1 := by
  simp only [main_part1, fn_where.body, fn_leaky_relu_1.body, fn_where_2.body, ops1, opsE, opsFs, opsG, opsH, opsI,
    List.cons_append, List.nil_append, seq, bind_assoc, pure_bind] <;> rfl

/-- The third window is its 7 operations in order. -/
theorem part2_eq (c : Dev nD) : main_part2 (F := F) c = seq opsJ := by
  simp only [main_part2, opsJ, seq, bind_assoc, pure_bind] <;> rfl

/-- @main is the whole line: the three windows one after the other are their concatenation run as one. -/
theorem main_eq (c : Dev nD) : main (F := F) c = seq ops := by
  have h : (seq ops : Prog (TpuEff nD τ sig (Elt F) (Pipeline.Sig Λ₀ (Fin 0) fun p => (pcfgs (F := F) p).Adm) .tc) PUnit)
      = seq ops0 >>= fun _ => seq ops1 >>= fun _ => seq opsJ := by
    rw [show (ops : List (HloOp τ sig (Elt F))) = ops0 ++ (ops1 ++ opsJ) from rfl, seq_append ops0 (ops1 ++ opsJ),
      seq_append ops1 opsJ]
  rw [h, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

theorem subA : (opsA : List (HloOp τ sig (Elt F))).Forall fun op => op.bufs ⊆ tcRefs τ sig := by
  unfold opsA
  exact ⟨nullary_bufs_sub .., unary_bufs_sub .., reshape_bufs_sub .., binary_bufs_sub .., unary_bufs_sub .., reshape_bufs_sub .., binary_bufs_sub .., binary_bufs_sub ..⟩
theorem freshA : (opsA : List (HloOp τ sig (Elt F))).Forall fun op => op.fresh = ∅ := by
  unfold opsA
  exact ⟨rfl, rfl, rfl, rfl, rfl, rfl, rfl, rfl⟩
theorem subB : (opsB : List (HloOp τ sig (Elt F))).Forall fun op => op.bufs ⊆ tcRefs τ sig := by
  unfold opsB
  exact ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem freshB : (opsB : List (HloOp τ sig (Elt F))).Forall fun op => op.fresh = ∅ := by
  unfold opsB
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem subC : (opsC : List (HloOp τ sig (Elt F))).Forall fun op => op.bufs ⊆ tcRefs τ sig := by
  unfold opsC
  exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem freshC : (opsC : List (HloOp τ sig (Elt F))).Forall fun op => op.fresh = ∅ := by
  unfold opsC
  exact ⟨rfl, rfl, rfl, rfl, rfl, rfl, rfl, rfl, rfl, rfl, rfl, rfl, rfl, rfl, rfl, rfl⟩
theorem subD : (opsD : List (HloOp τ sig (Elt F))).Forall fun op => op.bufs ⊆ tcRefs τ sig := by
  unfold opsD
  exact ⟨unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem freshD : (opsD : List (HloOp τ sig (Elt F))).Forall fun op => op.fresh = ∅ := by
  unfold opsD
  exact ⟨rfl, rfl, rfl, rfl, rfl, rfl, rfl, rfl, rfl, rfl, rfl⟩
theorem subE : (opsE : List (HloOp τ sig (Elt F))).Forall fun op => op.bufs ⊆ tcRefs τ sig := by
  unfold opsE
  exact binary_bufs_sub ..
theorem freshE : (opsE : List (HloOp τ sig (Elt F))).Forall fun op => op.fresh = ∅ := by
  unfold opsE
  exact rfl
theorem subFs : (opsFs : List (HloOp τ sig (Elt F))).Forall fun op => op.bufs ⊆ tcRefs τ sig := by
  unfold opsFs
  exact ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem freshFs : (opsFs : List (HloOp τ sig (Elt F))).Forall fun op => op.fresh = ∅ := by
  unfold opsFs
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem subG : (opsG : List (HloOp τ sig (Elt F))).Forall fun op => op.bufs ⊆ tcRefs τ sig := by
  unfold opsG
  exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem freshG : (opsG : List (HloOp τ sig (Elt F))).Forall fun op => op.fresh = ∅ := by
  unfold opsG
  exact ⟨rfl, rfl, rfl, rfl, rfl, rfl, rfl, rfl, rfl, rfl, rfl, rfl, rfl, rfl, rfl, rfl⟩
theorem subH : (opsH : List (HloOp τ sig (Elt F))).Forall fun op => op.bufs ⊆ tcRefs τ sig := by
  unfold opsH
  exact ⟨unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem freshH : (opsH : List (HloOp τ sig (Elt F))).Forall fun op => op.fresh = ∅ := by
  unfold opsH
  exact ⟨rfl, rfl, rfl, rfl, rfl, rfl, rfl, rfl, rfl, rfl, rfl⟩
theorem subI : (opsI : List (HloOp τ sig (Elt F))).Forall fun op => op.bufs ⊆ tcRefs τ sig := by
  unfold opsI
  exact ⟨binary_bufs_sub .., binary_bufs_sub .., unary_bufs_sub .., unary_bufs_sub .., binary_bufs_sub .., reshape_bufs_sub .., unary_bufs_sub ..⟩
theorem freshI : (opsI : List (HloOp τ sig (Elt F))).Forall fun op => op.fresh = ∅ := by
  unfold opsI
  exact ⟨rfl, rfl, rfl, rfl, rfl, rfl, rfl⟩
theorem subJ : (opsJ : List (HloOp τ sig (Elt F))).Forall fun op => op.bufs ⊆ tcRefs τ sig := by
  unfold opsJ
  exact ⟨unary_bufs_sub .., nullary_bufs_sub .., unary_bufs_sub .., binary_bufs_sub .., nullary_bufs_sub .., unary_bufs_sub .., binary_bufs_sub ..⟩
theorem freshJ : (opsJ : List (HloOp τ sig (Elt F))).Forall fun op => op.fresh = ∅ := by
  unfold opsJ
  exact ⟨rfl, rfl, rfl, rfl, rfl, rfl, rfl⟩

theorem ops_sub : (ops : List (HloOp τ sig (Elt F))).Forall fun op => op.bufs ⊆ tcRefs τ sig :=
  List.forall_append.mpr ⟨List.forall_append.mpr ⟨subA, List.forall_append.mpr ⟨subB, List.forall_append.mpr ⟨subC, subD⟩⟩⟩,
    List.forall_append.mpr ⟨List.forall_append.mpr ⟨subE, List.forall_append.mpr ⟨subFs, List.forall_append.mpr ⟨subG,
      List.forall_append.mpr ⟨subH, subI⟩⟩⟩⟩, subJ⟩⟩

theorem ops_fresh : ∀ op ∈ (ops : List (HloOp τ sig (Elt F))), op.fresh = ∅ :=
  List.forall_iff_forall_mem.mp
    (List.forall_append.mpr ⟨List.forall_append.mpr ⟨freshA, List.forall_append.mpr ⟨freshB, List.forall_append.mpr ⟨freshC, freshD⟩⟩⟩,
      List.forall_append.mpr ⟨List.forall_append.mpr ⟨freshE, List.forall_append.mpr ⟨freshFs, List.forall_append.mpr ⟨freshG,
        List.forall_append.mpr ⟨freshH, freshI⟩⟩⟩⟩, freshJ⟩⟩)

/-- On every device, for any float values, from any memory with zero counters: every weakly fair execution of @main
    terminates, and every final state has each buffer at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.GraphR.lean ====
/-
  The graph part of a two-layer graph convolution, as functions of arrays.

  From the edge list `E` (two rows of 1 600 000 node numbers) the program forms the source list `rowIdx E` and
  the target list `colIdx E`, each the edge row followed by the 100 000 self loops 0, 1, …, 99 999.  The degree of a
  node is the number of list entries that name it as a target; `normOf` gives each of the 1 700 000 entries the
  weight d(source)^(-1/2) · d(target)^(-1/2), with 0 in place of d^(-1/2) where the degree is not positive.
  `agg32` and `agg64` send a feature table to its weighted neighbourhood sums: entry k contributes
  weight(k) · feat[source(k), :] to row target(k).  A negative list entry is first moved up by 100 000 where it is
  used to pick a row.  All of this is spelt with the host's own gather and scatter-add, which are never opened:
  both programs apply the same functions to the same lists, and only the feature tables differ in how they are
  computed.
-/
import proofs.«173752_j1967095022252_1_alg».proof.ReferenceIdeal

noncomputable section

namespace Cert.ReferenceIdeal.Spec

open Idealize.ShloMosaic Cert.ReferenceIdeal Cert.ReferenceIdeal.Facts₀

variable {F : FTy → Type} [FloatOps F] [Cert.ReferenceIdeal.Facts₀]

/-- The sources: row 0 of the edge list, then the self loops. -/
def rowIdx (E : (⟨S2x1600000, .i32⟩ : BufTy).Contents (Elt F)) : (⟨S1700000, .i32⟩ : BufTy).Contents (Elt F) :=
  concatenate S1700000 0
    [⟨S1600000, fun i => shapeCast S1600000
        (extractStridedSlice S1x1600000 ![0, 0] E slices_S2x1600000_S1x1600000_0_0) shapeCasts_S1x1600000_S1600000 i⟩,
      ⟨S100000, iotaInDim S100000 32 0⟩]
    concatenates_S1600000_S100000_S1700000_d0

/-- The targets: row 1 of the edge list, then the self loops. -/
def colIdx (E : (⟨S2x1600000, .i32⟩ : BufTy).Contents (Elt F)) : (⟨S1700000, .i32⟩ : BufTy).Contents (Elt F) :=
  concatenate S1700000 0
    [⟨S1600000, fun i => shapeCast S1600000
        (extractStridedSlice S1x1600000 ![1, 0] E slices_S2x1600000_S1x1600000_1_0) shapeCasts_S1x1600000_S1600000 i⟩,
      ⟨S100000, iotaInDim S100000 32 0⟩]
    concatenates_S1600000_S100000_S1700000_d0

/-- A list of node numbers as a column of row picks: a negative entry moved up by the number of nodes. -/
def pick (idx : (⟨S1700000, .i32⟩ : BufTy).Contents (Elt F)) : (⟨S1700000x1, .i32⟩ : BufTy).Contents (Elt F) :=
  broadcastInDim S1700000x1 ![0] bcast_S1700000_S1700000x1_0
    (select (cmpi .slt idx (broadcastInDim S1700000 ![] bcast_S_S1700000 (constantI S_ 32 0#32)))
      (addi idx (broadcastInDim S1700000 ![] bcast_S_S1700000 (constantI S_ 32 100000#32))) idx)

/-- d^(-1/2) per node, 0 where the degree d (the number of list entries with that target) is not positive. -/
def dinvOf (col : (⟨S1700000, .i32⟩ : BufTy).Contents (Elt F)) : (⟨S100000, .f32⟩ : BufTy).Contents (Elt F) :=
  select
    (cmpf .ogt
      (Host.scatterAdd scatter_S100000_S1700000x1_S1700000_n_0_0_1
        (broadcastInDim S100000 ![] bcast_S_S100000 (constant (F := F) S_ .f32 0x00000000#32))
        (broadcastInDim S1700000x1 ![0] bcast_S1700000_S1700000x1_0 col)
        (broadcastInDim S1700000 ![] bcast_S_S1700000 (constant (F := F) S_ .f32 0x3F800000#32)))
      (broadcastInDim S100000 ![] bcast_S_S100000 (constant (F := F) S_ .f32 0x00000000#32)))
    (Host.rsqrt
      (Host.scatterAdd scatter_S100000_S1700000x1_S1700000_n_0_0_1
        (broadcastInDim S100000 ![] bcast_S_S100000 (constant (F := F) S_ .f32 0x00000000#32))
        (broadcastInDim S1700000x1 ![0] bcast_S1700000_S1700000x1_0 col)
        (broadcastInDim S1700000 ![] bcast_S_S1700000 (constant (F := F) S_ .f32 0x3F800000#32))))
    (broadcastInDim S100000 ![] bcast_S_S100000 (id (constant (F := F) S_ .f32 0x00000000#32)))

/-- The weight of each list entry: d^(-1/2) of its source times d^(-1/2) of its target. -/
def normOf (row col : (⟨S1700000, .i32⟩ : BufTy).Contents (Elt F)) : (⟨S1700000, .f32⟩ : BufTy).Contents (Elt F) :=
  mulf (Host.gather gather_S100000_S1700000x1_S1700000_n_0_n_n_0_1_1 (dinvOf col) (pick row))
    (Host.gather gather_S100000_S1700000x1_S1700000_n_0_n_n_0_1_1 (dinvOf col) (pick col))

/-- The weighted neighbourhood sums of a 32-column feature table. -/
def agg32 (feat : (⟨S100000x32, .f32⟩ : BufTy).Contents (Elt F)) (row col : (⟨S1700000, .i32⟩ : BufTy).Contents (Elt F))
    (w : (⟨S1700000, .f32⟩ : BufTy).Contents (Elt F)) : (⟨S100000x32, .f32⟩ : BufTy).Contents (Elt F) :=
  Host.scatterAdd scatter_S100000x32_S1700000x1_S1700000x32_1_0_0_1
    (broadcastInDim S100000x32 ![] bcast_S_S100000x32 (constant (F := F) S_ .f32 0x00000000#32))
    (broadcastInDim S1700000x1 ![0] bcast_S1700000_S1700000x1_0 col)
    (mulf (Host.gather gather_S100000x32_S1700000x1_S1700000x32_1_0_n_n_0_1_132 feat (pick row))
      (broadcastInDim S1700000x32 ![0, 1] bcast_S1700000x1_S1700000x32_0_1
        (broadcastInDim S1700000x1 ![0] bcast_S1700000_S1700000x1_0 w)))

/-- The weighted neighbourhood sums of a 64-column feature table. -/
def agg64 (feat : (⟨S100000x64, .f32⟩ : BufTy).Contents (Elt F)) (row col : (⟨S1700000, .i32⟩ : BufTy).Contents (Elt F))
    (w : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 col)
    (mulf (Host.gather gather_S100000x64_S1700000x1_S1700000x64_1_0_n_n_0_1_164 feat (pick row))
      (broadcastInDim S1700000x64 ![0, 1] bcast_S1700000x1_S1700000x64_0_1
        (broadcastInDim S1700000x1 ![0] bcast_S1700000_S1700000x1_0 w)))

end Cert.ReferenceIdeal.Spec

end
-- ==== Proof.RefSpec.lean ====
/-
  The reference as one function of its eight argument arrays.

  With the graph functions of the companion module (the source and target lists, the edge weights, the weighted
  neighbourhood sums `agg32` / `agg64`), the reference is

    h1  = leaky (agg32 (x · W1) + b1)            (100 000 × 32)
    h2  = leaky (agg64 (h1 · W2) + b2)           (100 000 × 64)
    out = 1 / (1 + exp (−([x | h2] · Wfc + bfc)))   (100 000)

  where leaky z = z if z ≥ 0 and 0.01·z otherwise (0.01 the float 0x3C23D70A), `[x | h2]` puts the 10 columns of x
  before the 64 of h2, and each product is the host's matrix product.  Each stage below is spelt exactly as the
  reference's operations compose, so that reading the reference's run produces these terms and nothing else.
-/
import proofs.«173752_j1967095022252_1_alg».proof.Proof.GraphR

noncomputable section

namespace Cert.ReferenceIdeal.Spec

open Idealize.ShloMosaic Cert.ReferenceIdeal Cert.ReferenceIdeal.Facts₀

variable {F : FTy → Type} [FloatOps F] [Cert.ReferenceIdeal.Facts₀]

/-- x · W1. -/
def dense1 (x : (⟨S100000x10, .f32⟩ : BufTy).Contents (Elt F)) (w : (⟨S10x32, .f32⟩ : BufTy).Contents (Elt F)) :
    (⟨S100000x32, .f32⟩ : BufTy).Contents (Elt F) :=
  Host.dotGeneral dot_S100000x10_S10x32_S100000x32_1_0_0_1_n_n none x w

/-- z + b, the bias repeated down the rows. -/
def biased32 (z : (⟨S100000x32, .f32⟩ : BufTy).Contents (Elt F)) (b : (⟨S32, .f32⟩ : BufTy).Contents (Elt F)) :
    (⟨S100000x32, .f32⟩ : BufTy).Contents (Elt F) :=
  addf z (broadcastInDim S100000x32 ![0, 1] bcast_S1x32_S100000x32_0_1 (broadcastInDim S1x32 ![1] bcast_S32_S1x32_1 b))

/-- leaky y: y where y ≥ 0, 0.01 · y elsewhere. -/
def leaky32 (y : (⟨S100000x32, .f32⟩ : BufTy).Contents (Elt F)) : (⟨S100000x32, .f32⟩ : BufTy).Contents (Elt F) :=
  select (cmpf .oge y (broadcastInDim S100000x32 ![] bcast_S_S100000x32 (constant (F := F) S_ .f32 0x00000000#32))) y
    (mulf (broadcastInDim S100000x32 ![] bcast_S_S100000x32 (id (constant (F := F) S_ .f32 0x3C23D70A#32))) y)

/-- h · W2. -/
def dense2 (h : (⟨S100000x32, .f32⟩ : BufTy).Contents (Elt F)) (w : (⟨S32x64, .f32⟩ : BufTy).Contents (Elt F)) :
    (⟨S100000x64, .f32⟩ : BufTy).Contents (Elt F) :=
  Host.dotGeneral dot_S100000x32_S32x64_S100000x64_1_0_0_1_n_n none h w

/-- z + b, the bias repeated down the rows. -/
def biased64 (z : (⟨S100000x64, .f32⟩ : BufTy).Contents (Elt F)) (b : (⟨S64, .f32⟩ : BufTy).Contents (Elt F)) :
    (⟨S100000x64, .f32⟩ : BufTy).Contents (Elt F) :=
  addf z (broadcastInDim S100000x64 ![0, 1] bcast_S1x64_S100000x64_0_1 (broadcastInDim S1x64 ![1] bcast_S64_S1x64_1 b))

/-- leaky y: y where y ≥ 0, 0.01 · y elsewhere. -/
def leaky64 (y : (⟨S100000x64, .f32⟩ : BufTy).Contents (Elt F)) : (⟨S100000x64, .f32⟩ : BufTy).Contents (Elt F) :=
  select (cmpf .oge y (broadcastInDim S100000x64 ![] bcast_S_S100000x64 (constant (F := F) S_ .f32 0x00000000#32))) y
    (mulf (broadcastInDim S100000x64 ![] bcast_S_S100000x64 (id (constant (F := F) S_ .f32 0x3C23D70A#32))) y)

/-- [x | h] · Wfc + bfc, as a column. -/
def logits (x : (⟨S100000x10, .f32⟩ : BufTy).Contents (Elt F)) (h : (⟨S100000x64, .f32⟩ : BufTy).Contents (Elt F))
    (w : (⟨S74x1, .f32⟩ : BufTy).Contents (Elt F)) (b : (⟨S1, .f32⟩ : BufTy).Contents (Elt F)) :
    (⟨S100000x1, .f32⟩ : BufTy).Contents (Elt F) :=
  addf
    (Host.dotGeneral dot_S100000x74_S74x1_S100000x1_1_0_0_1_n_n none
      (concatenate S100000x74 1 [⟨S100000x10, x⟩, ⟨S100000x64, h⟩] concatenates_S100000x10_S100000x64_S100000x74_d1) w)
    (broadcastInDim S100000x1 ![0, 1] bcast_S1x1_S100000x1_0_1 (broadcastInDim S1x1 ![1] bcast_S1_S1x1_1 b))

/-- 1 / (1 + exp (−z)) of the column read as a vector. -/
def squash (z : (⟨S100000x1, .f32⟩ : BufTy).Contents (Elt F)) : (⟨S100000, .f32⟩ : BufTy).Contents (Elt F) :=
  Host.divf (broadcastInDim S100000 ![] bcast_S_S100000 (constant (F := F) S_ .f32 0x3F800000#32))
    (addf (broadcastInDim S100000 ![] bcast_S_S100000 (constant (F := F) S_ .f32 0x3F800000#32))
      (Host.exp (Host.negf (fun i => shapeCast S100000 z shapeCasts_S100000x1_S100000 i))))

/-- The reference's result as a function of its eight arguments. -/
def refOut (x : (⟨S100000x10, .f32⟩ : BufTy).Contents (Elt F)) (E : (⟨S2x1600000, .i32⟩ : BufTy).Contents (Elt F))
    (W1 : (⟨S10x32, .f32⟩ : BufTy).Contents (Elt F)) (b1 : (⟨S32, .f32⟩ : BufTy).Contents (Elt F))
    (W2 : (⟨S32x64, .f32⟩ : BufTy).Contents (Elt F)) (b2 : (⟨S64, .f32⟩ : BufTy).Contents (Elt F))
    (Wfc : (⟨S74x1, .f32⟩ : BufTy).Contents (Elt F)) (bfc : (⟨S1, .f32⟩ : BufTy).Contents (Elt F)) :
    (⟨S100000, .f32⟩ : BufTy).Contents (Elt F) :=
  squash (logits x
    (leaky64 (biased64
      (agg64 (dense2
        (leaky32 (biased32 (agg32 (dense1 x W1) (rowIdx E) (colIdx E) (normOf (rowIdx E) (colIdx E))) b1)) W2)
        (rowIdx E) (colIdx E) (normOf (rowIdx E) (colIdx E))) b2)) Wfc bfc)

end Cert.ReferenceIdeal.Spec

end
-- ==== Proof.RefStages.lean ====
/-
  The reference program's run, stretch by stretch.

  The contents after a line of operations are a fold over the line, so the contents after two stretches are the second
  stretch's fold of the first's. Each of the ten stretches of the run is read on its own: the buffer it is there to fill
  holds one stage of the network applied to the contents of the buffers the stretch reads, and every buffer it does not
  write holds what it held.
-/
import proofs.«173752_j1967095022252_1_alg».proof.Proof.RefRun
import proofs.«173752_j1967095022252_1_alg».proof.Proof.RefSpec

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo Cert.HostRead

variable {F : FTy → Type} [FloatOps F]

/-- The contents after two stretches run one after the other: the second's fold of the first's. -/
theorem after_append {T : Topo} {sg : RefSig} {Val : EltTy → Type} (l₁ l₂ : List (HloOp T sg Val)) (V : Valuation T sg Val) :
    after (l₁ ++ l₂) V = after l₂ (after l₁ V) := by
  induction l₁ generalizing V with
  | nil => rfl
  | cons op l ih => exact ih (op.result V)

/-- An operation that writes the one buffer `y` writes inside any list of buffers that has `y`. -/
theorem writes_sub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-! ## What each stretch leaves alone -/

/-- The buffers stretch A writes. -/
abbrev WA : List (Ref sig .tc) := [main_v0, main_v1, main_v2, main_v3, main_v4, main_v5, main_v6, main_v7]
/-- Stretch A leaves every other buffer as it was. -/
theorem keepA (V : Valuation τ sig (Elt F)) {r : Ref sig .tc} (hr : r ∉ WA) :
    after opsA V (Proc.devRef .tc r) = V (Proc.devRef .tc r) :=
  after_of_writes_sub opsA V (W := WA)
    (by unfold opsA; exact ⟨writes_sub (by decide), writes_sub (by decide), writes_sub (by decide), writes_sub (by decide), writes_sub (by decide), writes_sub (by decide), writes_sub (by decide), writes_sub (by decide)⟩) hr
/-- The same, stated for rewriting at any buffer in one pass. -/
theorem keepA' (V : Valuation τ sig (Elt F)) {r : Ref sig .tc} (hr : r ∉ WA) :
    after opsA V (no_index (Proc.devRef .tc r)) = V (Proc.devRef .tc r) := keepA V hr

/-- The buffers stretch B writes. -/
abbrev WB : List (Ref sig .tc) := [main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30]
/-- Stretch B leaves every other buffer as it was. -/
theorem keepB (V : Valuation τ sig (Elt F)) {r : Ref sig .tc} (hr : r ∉ WB) :
    after opsB V (Proc.devRef .tc r) = V (Proc.devRef .tc r) :=
  after_of_writes_sub opsB V (W := WB)
    (by unfold opsB; exact ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩) hr
/-- The same, stated for rewriting at any buffer in one pass. -/
theorem keepB' (V : Valuation τ sig (Elt F)) {r : Ref sig .tc} (hr : r ∉ WB) :
    after opsB V (no_index (Proc.devRef .tc r)) = V (Proc.devRef .tc r) := keepB V hr

/-- The buffers stretch C writes. -/
abbrev WC : List (Ref sig .tc) := [main_c_6, main_v31, main_v32, main_c_7, main_v33, main_v34, main_v35, main_v36, main_v37, main_v38, main_v39, main_v40, main_cst_8, main_v41, main_v42, main_v43]
/-- Stretch C leaves every other buffer as it was. -/
theorem keepC (V : Valuation τ sig (Elt F)) {r : Ref sig .tc} (hr : r ∉ WC) :
    after opsC V (Proc.devRef .tc r) = V (Proc.devRef .tc r) :=
  after_of_writes_sub opsC V (W := WC)
    (by unfold opsC; exact ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩) hr
/-- The same, stated for rewriting at any buffer in one pass. -/
theorem keepC' (V : Valuation τ sig (Elt F)) {r : Ref sig .tc} (hr : r ∉ WC) :
    after opsC V (no_index (Proc.devRef .tc r)) = V (Proc.devRef .tc r) := keepC V hr

/-- The buffers stretch D writes. -/
abbrev WD : List (Ref sig .tc) := [main_v44, main_v45, main_v46, main_cst_9, main_call1_cst, main_call1_v0, main_call1_v1, main_call1_v2, main_call1_v3, main_call1_v4, main_v47]
/-- Stretch D leaves every other buffer as it was. -/
theorem keepD (V : Valuation τ sig (Elt F)) {r : Ref sig .tc} (hr : r ∉ WD) :
    after opsD V (Proc.devRef .tc r) = V (Proc.devRef .tc r) :=
  after_of_writes_sub opsD V (W := WD)
    (by unfold opsD; exact ⟨writes_sub (by decide), writes_sub (by decide), writes_sub (by decide), writes_sub (by decide), writes_sub (by decide), writes_sub (by decide), writes_sub (by decide), writes_sub (by decide), writes_sub (by decide), writes_sub (by decide), writes_sub (by decide)⟩) hr
/-- The same, stated for rewriting at any buffer in one pass. -/
theorem keepD' (V : Valuation τ sig (Elt F)) {r : Ref sig .tc} (hr : r ∉ WD) :
    after opsD V (no_index (Proc.devRef .tc r)) = V (Proc.devRef .tc r) := keepD V hr

/-- The buffers stretch E writes. -/
abbrev WE : List (Ref sig .tc) := [main_v48]
/-- Stretch E leaves every other buffer as it was. -/
theorem keepE (V : Valuation τ sig (Elt F)) {r : Ref sig .tc} (hr : r ∉ WE) :
    after opsE V (Proc.devRef .tc r) = V (Proc.devRef .tc r) :=
  after_of_writes_sub opsE V (W := WE)
    (by unfold opsE; exact writes_sub (by decide)) hr
/-- The same, stated for rewriting at any buffer in one pass. -/
theorem keepE' (V : Valuation τ sig (Elt F)) {r : Ref sig .tc} (hr : r ∉ WE) :
    after opsE V (no_index (Proc.devRef .tc r)) = V (Proc.devRef .tc r) := keepE V hr

/-- The buffers stretch Fs writes. -/
abbrev WFs : List (Ref sig .tc) := [main_cst_10, main_v49, main_cst_11, main_v50, main_v51, main_v52, main_cst_12, main_v53, main_v54, main_v55, main_cst_13, main_call2_v0, main_call2_v1, main_v56, main_c_14, main_v57, main_v58, main_c_15, main_v59, main_v60, main_v61, main_v62, main_v63, main_c_16, main_v64, main_v65, main_c_17, main_v66, main_v67, main_v68, main_v69, main_v70, main_v71]
/-- Stretch Fs leaves every other buffer as it was. -/
theorem keepFs (V : Valuation τ sig (Elt F)) {r : Ref sig .tc} (hr : r ∉ WFs) :
    after opsFs V (Proc.devRef .tc r) = V (Proc.devRef .tc r) :=
  after_of_writes_sub opsFs V (W := WFs)
    (by unfold opsFs; exact ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩) hr
/-- The same, stated for rewriting at any buffer in one pass. -/
theorem keepFs' (V : Valuation τ sig (Elt F)) {r : Ref sig .tc} (hr : r ∉ WFs) :
    after opsFs V (no_index (Proc.devRef .tc r)) = V (Proc.devRef .tc r) := keepFs V hr

/-- The buffers stretch G writes. -/
abbrev WG : List (Ref sig .tc) := [main_c_18, main_v72, main_v73, main_c_19, main_v74, main_v75, main_v76, main_v77, main_v78, main_v79, main_v80, main_v81, main_cst_20, main_v82, main_v83, main_v84]
/-- Stretch G leaves every other buffer as it was. -/
theorem keepG (V : Valuation τ sig (Elt F)) {r : Ref sig .tc} (hr : r ∉ WG) :
    after opsG V (Proc.devRef .tc r) = V (Proc.devRef .tc r) :=
  after_of_writes_sub opsG V (W := WG)
    (by unfold opsG; exact ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩) hr
/-- The same, stated for rewriting at any buffer in one pass. -/
theorem keepG' (V : Valuation τ sig (Elt F)) {r : Ref sig .tc} (hr : r ∉ WG) :
    after opsG V (no_index (Proc.devRef .tc r)) = V (Proc.devRef .tc r) := keepG V hr

/-- The buffers stretch H writes. -/
abbrev WH : List (Ref sig .tc) := [main_v85, main_v86, main_v87, main_cst_21, main_call3_cst, main_call3_v0, main_call3_v1, main_call3_v2, main_call3_v3, main_call3_v4, main_v88]
/-- Stretch H leaves every other buffer as it was. -/
theorem keepH (V : Valuation τ sig (Elt F)) {r : Ref sig .tc} (hr : r ∉ WH) :
    after opsH V (Proc.devRef .tc r) = V (Proc.devRef .tc r) :=
  after_of_writes_sub opsH V (W := WH)
    (by unfold opsH; exact ⟨writes_sub (by decide), writes_sub (by decide), writes_sub (by decide), writes_sub (by decide), writes_sub (by decide), writes_sub (by decide), writes_sub (by decide), writes_sub (by decide), writes_sub (by decide), writes_sub (by decide), writes_sub (by decide)⟩) hr
/-- The same, stated for rewriting at any buffer in one pass. -/
theorem keepH' (V : Valuation τ sig (Elt F)) {r : Ref sig .tc} (hr : r ∉ WH) :
    after opsH V (no_index (Proc.devRef .tc r)) = V (Proc.devRef .tc r) := keepH V hr

/-- The buffers stretch I writes. -/
abbrev WI : List (Ref sig .tc) := [main_v89, main_v90, main_v91, main_v92, main_v93, main_v94, main_v95]
/-- Stretch I leaves every other buffer as it was. -/
theorem keepI (V : Valuation τ sig (Elt F)) {r : Ref sig .tc} (hr : r ∉ WI) :
    after opsI V (Proc.devRef .tc r) = V (Proc.devRef .tc r) :=
  after_of_writes_sub opsI V (W := WI)
    (by unfold opsI; exact ⟨writes_sub (by decide), writes_sub (by decide), writes_sub (by decide), writes_sub (by decide), writes_sub (by decide), writes_sub (by decide), writes_sub (by decide)⟩) hr
/-- The same, stated for rewriting at any buffer in one pass. -/
theorem keepI' (V : Valuation τ sig (Elt F)) {r : Ref sig .tc} (hr : r ∉ WI) :
    after opsI V (no_index (Proc.devRef .tc r)) = V (Proc.devRef .tc r) := keepI V hr

/-- The buffers stretch J writes. -/
abbrev WJ : List (Ref sig .tc) := [main_v96, main_cst_22, main_v97, main_v98, main_cst_23, main_v99, main_v100]
/-- Stretch J leaves every other buffer as it was. -/
theorem keepJ (V : Valuation τ sig (Elt F)) {r : Ref sig .tc} (hr : r ∉ WJ) :
    after opsJ V (Proc.devRef .tc r) = V (Proc.devRef .tc r) :=
  after_of_writes_sub opsJ V (W := WJ)
    (by unfold opsJ; exact ⟨writes_sub (by decide), writes_sub (by decide), writes_sub (by decide), writes_sub (by decide), writes_sub (by decide), writes_sub (by decide), writes_sub (by decide)⟩) hr
/-- The same, stated for rewriting at any buffer in one pass. -/
theorem keepJ' (V : Valuation τ sig (Elt F)) {r : Ref sig .tc} (hr : r ∉ WJ) :
    after opsJ V (no_index (Proc.devRef .tc r)) = V (Proc.devRef .tc r) := keepJ V hr

/-! ## What each stretch computes -/

/-- The source list: row 0 of the edge list, then the self loops. -/
theorem rowA (V : Valuation τ sig (Elt F)) :
    after opsA V (Proc.devRef .tc main_v3) = Spec.rowIdx (V (Proc.devRef .tc main_arg1)) := by
  unfold opsA; read_results <;> rfl

/-- The target list: row 1 of the edge list, then the self loops. -/
theorem colA (V : Valuation τ sig (Elt F)) :
    after opsA V (Proc.devRef .tc main_v6) = Spec.colIdx (V (Proc.devRef .tc main_arg1)) := by
  unfold opsA; read_results <;> rfl

/-- x · W1. -/
theorem denseA (V : Valuation τ sig (Elt F)) :
    after opsA V (Proc.devRef .tc main_v7) = Spec.dense1 (V (Proc.devRef .tc main_arg0)) (V (Proc.devRef .tc main_arg2)) := by
  unfold opsA; read_results <;> rfl

/-- The first layer's edge weights, from the two lists. -/
theorem normB (V : Valuation τ sig (Elt F)) :
    after opsB V (Proc.devRef .tc main_v30) = Spec.normOf (V (Proc.devRef .tc main_v3)) (V (Proc.devRef .tc main_v6)) := by
  unfold opsB; read_results <;> rfl

/-- The first layer's weighted neighbourhood sums. -/
theorem aggC (V : Valuation τ sig (Elt F)) :
    after opsC V (Proc.devRef .tc main_v43)
      = Spec.agg32 (V (Proc.devRef .tc main_v7)) (V (Proc.devRef .tc main_v3)) (V (Proc.devRef .tc main_v6)) (V (Proc.devRef .tc main_v30)) := by
  unfold opsC; read_results <;> rfl

/-- The first layer's output: bias added, then the leaky rectifier. -/
theorem leakyD (V : Valuation τ sig (Elt F)) :
    after opsD V (Proc.devRef .tc main_v47) = Spec.leaky32 (Spec.biased32 (V (Proc.devRef .tc main_v43)) (V (Proc.devRef .tc main_arg3))) := by
  unfold opsD; read_results <;> rfl

/-- h1 · W2. -/
theorem denseE (V : Valuation τ sig (Elt F)) :
    after opsE V (Proc.devRef .tc main_v48) = Spec.dense2 (V (Proc.devRef .tc main_v47)) (V (Proc.devRef .tc main_arg4)) := by
  unfold opsE; read_results <;> rfl

/-- The second layer's edge weights: the same function of the same two lists. -/
theorem normF (V : Valuation τ sig (Elt F)) :
    after opsFs V (Proc.devRef .tc main_v71) = Spec.normOf (V (Proc.devRef .tc main_v3)) (V (Proc.devRef .tc main_v6)) := by
  unfold opsFs; read_results <;> rfl

/-- The second layer's weighted neighbourhood sums. -/
theorem aggG (V : Valuation τ sig (Elt F)) :
    after opsG V (Proc.devRef .tc main_v84)
      = Spec.agg64 (V (Proc.devRef .tc main_v48)) (V (Proc.devRef .tc main_v3)) (V (Proc.devRef .tc main_v6)) (V (Proc.devRef .tc main_v71)) := by
  unfold opsG; read_results <;> rfl

/-- The second layer's output: bias added, then the leaky rectifier. -/
theorem leakyH (V : Valuation τ sig (Elt F)) :
    after opsH V (Proc.devRef .tc main_v88) = Spec.leaky64 (Spec.biased64 (V (Proc.devRef .tc main_v84)) (V (Proc.devRef .tc main_arg5))) := by
  unfold opsH; read_results <;> rfl

/-- The head's column [x | h2] · Wfc + bfc, read as a vector and negated. -/
theorem negI (V : Valuation τ sig (Elt F)) :
    after opsI V (Proc.devRef .tc main_v95)
      = Host.negf (fun i => shapeCast S100000
          (Spec.logits (V (Proc.devRef .tc main_arg0)) (V (Proc.devRef .tc main_v88)) (V (Proc.devRef .tc main_arg6)) (V (Proc.devRef .tc main_arg7)))
          shapeCasts_S100000x1_S100000 i) := by
  unfold opsI; read_results <;> rfl

/-- 1 / (1 + exp ·) of the negated vector. -/
theorem outJ (V : Valuation τ sig (Elt F)) :
    after opsJ V (Proc.devRef .tc main_v100)
      = Host.divf (broadcastInDim S100000 ![] bcast_S_S100000 (constant (F := F) S_ .f32 0x3F800000#32))
          (addf (broadcastInDim S100000 ![] bcast_S_S100000 (constant (F := F) S_ .f32 0x3F800000#32))
            (Host.exp (V (Proc.devRef .tc main_v95)))) := by
  unfold opsJ; read_results <;> rfl

end Cert.ReferenceIdeal.RefRun

end
-- ==== Proof.RefValue.lean ====
/-
  What the reference program's run leaves in its result buffer: the reference function of the eight arguments.

  The ten stretches' readings composed: the result buffer after the whole line is the reference function of the launch
  contents of the eight argument buffers, and no stretch writes an argument buffer.
-/
import proofs.«173752_j1967095022252_1_alg».proof.Proof.RefStages

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- A buffer none of the ten stretches writes holds after the whole line what it held before. -/
theorem keep_all (V : Valuation τ sig (Elt F)) {r : Ref sig .tc} (hA : r ∉ WA) (hB : r ∉ WB) (hC : r ∉ WC) (hD : r ∉ WD) (hE : r ∉ WE) (hFs : r ∉ WFs) (hG : r ∉ WG) (hH : r ∉ WH) (hI : r ∉ WI) (hJ : r ∉ WJ) :
    after ops V (Proc.devRef .tc r) = V (Proc.devRef .tc r) := by
  simp only [ops, ops0, ops1, after_append]
  rw [keepJ _ hJ, keepI _ hI, keepH _ hH, keepG _ hG, keepFs _ hFs, keepE _ hE, keepD _ hD, keepC _ hC, keepB _ hB, keepA _ hA]

/-- The result buffer after the whole line: the reference function of the contents of the eight argument buffers. The
    stretches' readings composed, last stretch first; each argument and each list read through the stretches that leave
    it alone. -/
theorem out_eq (V : Valuation τ sig (Elt F)) :
    after ops V (Proc.devRef .tc main_v100)
      = Spec.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  simp only [ops, ops0, ops1, after_append]
  rw [outJ]
  rw [negI]
  rw [keepH _ (r := main_arg0) (by decide), leakyH, keepH _ (r := main_arg6) (by decide), keepH _ (r := main_arg7) (by decide)]
  rw [keepG _ (r := main_arg0) (by decide), aggG, keepG _ (r := main_arg5) (by decide), keepG _ (r := main_arg6) (by decide), keepG _ (r := main_arg7) (by decide)]
  rw [keepFs _ (r := main_arg0) (by decide), keepFs _ (r := main_v48) (by decide), keepFs _ (r := main_v3) (by decide), keepFs _ (r := main_v6) (by decide), normF, keepFs _ (r := main_arg5) (by decide), keepFs _ (r := main_arg6) (by decide), keepFs _ (r := main_arg7) (by decide)]
  rw [keepE _ (r := main_arg0) (by decide), denseE, keepE _ (r := main_v3) (by decide), keepE _ (r := main_v6) (by decide), keepE _ (r := main_arg5) (by decide), keepE _ (r := main_arg6) (by decide), keepE _ (r := main_arg7) (by decide)]
  rw [keepD _ (r := main_arg0) (by decide), leakyD, keepD _ (r := main_arg4) (by decide), keepD _ (r := main_v3) (by decide), keepD _ (r := main_v6) (by decide), keepD _ (r := main_arg5) (by decide), keepD _ (r := main_arg6) (by decide), keepD _ (r := main_arg7) (by decide)]
  rw [keepC _ (r := main_arg0) (by decide), aggC, keepC _ (r := main_arg3) (by decide), keepC _ (r := main_arg4) (by decide), keepC _ (r := main_v3) (by decide), keepC _ (r := main_v6) (by decide), keepC _ (r := main_arg5) (by decide), keepC _ (r := main_arg6) (by decide), keepC _ (r := main_arg7) (by decide)]
  rw [keepB _ (r := main_arg0) (by decide), keepB _ (r := main_v7) (by decide), keepB _ (r := main_v3) (by decide), keepB _ (r := main_v6) (by decide), normB, keepB _ (r := main_arg3) (by decide), keepB _ (r := main_arg4) (by decide), keepB _ (r := main_arg5) (by decide), keepB _ (r := main_arg6) (by decide), keepB _ (r := main_arg7) (by decide)]
  rw [keepA _ (r := main_arg0) (by decide), denseA, rowA, colA, keepA _ (r := main_arg3) (by decide), keepA _ (r := main_arg4) (by decide), keepA _ (r := main_arg5) (by decide), keepA _ (r := main_arg6) (by decide), keepA _ (r := main_arg7) (by decide)]
  rfl

/-- On every device, for any float values, from any memory with zero counters: every weakly fair execution of @main
    terminates with the result buffer at the reference function of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100)
        = Spec.refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v100).trans (out_eq _),
      (h c main_arg0).trans (keep_all _ (by decide) (by decide) (by decide) (by decide) (by decide) (by decide) (by decide) (by decide) (by decide) (by decide)),
      (h c main_arg1).trans (keep_all _ (by decide) (by decide) (by decide) (by decide) (by decide) (by decide) (by decide) (by decide) (by decide) (by decide)),
      (h c main_arg2).trans (keep_all _ (by decide) (by decide) (by decide) (by decide) (by decide) (by decide) (by decide) (by decide) (by decide) (by decide)),
      (h c main_arg3).trans (keep_all _ (by decide) (by decide) (by decide) (by decide) (by decide) (by decide) (by decide) (by decide) (by decide) (by decide)),
      (h c main_arg4).trans (keep_all _ (by decide) (by decide) (by decide) (by decide) (by decide) (by decide) (by decide) (by decide) (by decide) (by decide)),
      (h c main_arg5).trans (keep_all _ (by decide) (by decide) (by decide) (by decide) (by decide) (by decide) (by decide) (by decide) (by decide) (by decide)),
      (h c main_arg6).trans (keep_all _ (by decide) (by decide) (by decide) (by decide) (by decide) (by decide) (by decide) (by decide) (by decide) (by decide)),
      (h c main_arg7).trans (keep_all _ (by decide) (by decide) (by decide) (by decide) (by decide) (by decide) (by decide) (by decide) (by decide) (by decide))⟩)
    (run_after m ρ)

end Cert.ReferenceIdeal.RefRun

end
-- ==== Proof.RefEntry.lean ====
/-
  The reference's dense stages, entry by entry.

  The host's matrix product at an entry is the sum over the contraction index; a bias broadcast first to one row and then
  down the rows, read at (r, k), is the bias at k; the rectifier, spelt with a comparison, a product and a selection, is
  applied entry by entry; the concatenation along the columns reads its first ten columns from x and the rest from the
  hidden table; a 100 000 × 1 column read as a vector has at r the column's entry (r, 0); and 1 / (1 + exp (−z)), with
  the float 1.0 being the number 1, is the logistic function.  So each stage is the matching function of the entry-level
  description.
-/
import proofs.«173752_j1967095022252_1_alg».proof.Proof.RefSpec
import proofs.«173752_j1967095022252_1_alg».proof.Proof.Entry
import proofs.«173752_j1967095022252_1_alg».proof.Proof.LibPlainDot
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open Idealize.ShloMosaic Idealize.ShloMosaic.ValueIdx
open scoped BigOperators

namespace Cert.ReferenceIdeal.RefEntry

open Cert.ReferenceIdeal Cert.ReferenceIdeal.Facts₀

variable [Cert.ReferenceIdeal.Facts₀]

/-- x · W1 on the host is the product entry by entry. -/
theorem dense1_eq (x : S100000x10.Idx → EReal) (w : S10x32.Idx → EReal) :
    Spec.dense1 (F := Ideal) x w = Cert.Entry.mm1 x w := by
  funext i
  obtain ⟨p, q, rfl⟩ : ∃ (p : Fin 100000) (q : Fin 32), i = ix2 p q := ⟨i 0, i 1, eq_ix2 i⟩
  unfold Spec.dense1 Cert.Entry.mm1
  exact Cert.PlainDot.dotGeneral_apply none _ x w p q

/-- The bias added down the rows and the rectifier, at an entry. -/
theorem act32_apply (z : S100000x32.Idx → EReal) (b : S32.Idx → EReal) (p : Fin 100000) (k : Fin 32) :
    Spec.leaky32 (F := Ideal) (Spec.biased32 (F := Ideal) z b) (ix2 p k) = Cert.Entry.lk (z (ix2 p k) + b (ix1 k)) := by
  show Cert.Entry.lk (z (ix2 p k) + broadcastInDim S100000x32 ![0, 1] bcast_S1x32_S100000x32_0_1
      (broadcastInDim S1x32 ![1] bcast_S32_S1x32_1 b) (ix2 p k)) = _
  rw [broadcastInDim_apply _ _ _ (ix2 p k) (ix2 (0 : Fin 1) k) (fun a => by
      match a with
      | ⟨0, _⟩ => rfl
      | ⟨1, _⟩ => rfl),
    broadcastInDim_apply _ _ _ (ix2 (0 : Fin 1) k) (ix1 k) (fun a => by
      match a with
      | ⟨0, _⟩ => rfl)]

/-- lk (z + b1) · W2 on the host is the hidden stage entry by entry. -/
theorem hid_eq (z : S100000x32.Idx → EReal) (b : S32.Idx → EReal) (w : S32x64.Idx → EReal) :
    Spec.dense2 (F := Ideal) (Spec.leaky32 (Spec.biased32 z b)) w = Cert.Entry.hid z (fun k => b (ix1 k)) w := by
  funext i
  obtain ⟨p, q, rfl⟩ : ∃ (p : Fin 100000) (q : Fin 64), i = ix2 p q := ⟨i 0, i 1, eq_ix2 i⟩
  unfold Spec.dense2 Cert.Entry.hid
  refine (Cert.PlainDot.dotGeneral_apply none _ _ w p q).trans (Finset.sum_congr rfl fun k _ => ?_)
  rw [act32_apply]

/-- The bias added down the rows and the rectifier, at an entry of the 64-column table. -/
theorem act64_apply (z : S100000x64.Idx → EReal) (b : S64.Idx → EReal) (p : Fin 100000) (k : Fin 64) :
    Spec.leaky64 (F := Ideal) (Spec.biased64 (F := Ideal) z b) (ix2 p k) = Cert.Entry.lk (z (ix2 p k) + b (ix1 k)) := by
  show Cert.Entry.lk (z (ix2 p k) + broadcastInDim S100000x64 ![0, 1] bcast_S1x64_S100000x64_0_1
      (broadcastInDim S1x64 ![1] bcast_S64_S1x64_1 b) (ix2 p k)) = _
  rw [broadcastInDim_apply _ _ _ (ix2 p k) (ix2 (0 : Fin 1) k) (fun a => by
      match a with
      | ⟨0, _⟩ => rfl
      | ⟨1, _⟩ => rfl),
    broadcastInDim_apply _ _ _ (ix2 (0 : Fin 1) k) (ix1 k) (fun a => by
      match a with
      | ⟨0, _⟩ => rfl)]

/-- Row r of ten columns followed by sixty-four, at column k. -/
theorem cat_apply (u : S100000x10.Idx → EReal) (f : S100000x64.Idx → EReal) (r : Fin 100000) (k : Fin 74) :
    concatenate S100000x74 1 [⟨S100000x10, u⟩, ⟨S100000x64, f⟩] concatenates_S100000x10_S100000x64_S100000x74_d1 (ix2 r k)
    = Cert.Entry.cat (fun k => u (ix2 r k)) (fun k => f (ix2 r k)) k := by
  unfold Cert.Entry.cat
  by_cases h : k.val < 10
  · rw [dif_pos h]
    refine concatenate_pair_apply_left (t := S100000x74) (s₁ := S100000x10) (s₂ := S100000x64) (1 : Fin 2) u _ concatenates_S100000x10_S100000x64_S100000x74_d1 (ix2 r k) rfl (ix2 r (⟨k.val, h⟩ : Fin 10)) (fun b => ?_)
    match b with
    | ⟨0, _⟩ => rfl
    | ⟨1, _⟩ => rfl
  · rw [dif_neg h]
    have hk : k.val < 74 := k.isLt
    refine concatenate_pair_apply_right (t := S100000x74) (s₁ := S100000x10) (s₂ := S100000x64) (1 : Fin 2) u _ concatenates_S100000x10_S100000x64_S100000x74_d1 (ix2 r k) rfl rfl (ix2 r (⟨k.val - 10, by omega⟩ : Fin 64)) (fun b hb => ?_) ?_
    · match b with
      | ⟨0, _⟩ => rfl
      | ⟨1, _⟩ => exact absurd rfl hb
    · show k.val - 10 + 10 = k.val
      omega

/-- [x | lk (z + b2)] · Wfc + bfc, at row r. -/
theorem logits_apply (x : S100000x10.Idx → EReal) (z : S100000x64.Idx → EReal) (b : S64.Idx → EReal)
    (w : S74x1.Idx → EReal) (c : S1.Idx → EReal) (r : Fin 100000) :
    Spec.logits (F := Ideal) x (Spec.leaky64 (Spec.biased64 z b)) w c (ix2 r (0 : Fin 1))
      = (∑ k : Fin 74, Cert.Entry.cat (fun k => x (ix2 r k)) (fun k => Cert.Entry.lk (z (ix2 r k) + b (ix1 k))) k
          * w (ix2 k (0 : Fin 1))) + c (ix1 (0 : Fin 1)) := by
  unfold Spec.logits
  show (FloatOps.dotGeneral (F := Ideal) (DotDims.plain 100000 74 1) none _ _ w (ix2 r (0 : Fin 1)) : EReal)
      + broadcastInDim S100000x1 ![0, 1] bcast_S1x1_S100000x1_0_1 (broadcastInDim S1x1 ![1] bcast_S1_S1x1_1 c) (ix2 r (0 : Fin 1)) = _
  rw [Cert.PlainDot.dotGeneral_apply,
    broadcastInDim_apply _ _ _ (ix2 r (0 : Fin 1)) (ix2 (0 : Fin 1) (0 : Fin 1)) (fun a => by
      match a with
      | ⟨0, _⟩ => rfl
      | ⟨1, _⟩ => rfl),
    broadcastInDim_apply _ _ _ (ix2 (0 : Fin 1) (0 : Fin 1)) (ix1 (0 : Fin 1)) (fun a => by
      match a with
      | ⟨0, _⟩ => rfl)]
  refine congrArg (· + c (ix1 (0 : Fin 1))) (Finset.sum_congr rfl fun k _ => ?_)
  refine congrArg (· * w (ix2 k (0 : Fin 1))) ?_
  refine (cat_apply _ _ r k).trans ?_
  exact congrArg (fun g => Cert.Entry.cat (fun k => x (ix2 r k)) g k) (funext fun k' => act64_apply z b r k')

/-- The head on the host is the last stage row by row. -/
theorem outp_eq (x : S100000x10.Idx → EReal) (z : S100000x64.Idx → EReal) (b : S64.Idx → EReal)
    (w : S74x1.Idx → EReal) (c : S1.Idx → EReal) :
    Spec.squash (F := Ideal) (Spec.logits x (Spec.leaky64 (Spec.biased64 z b)) w c)
      = fun i => Cert.Entry.outp x z (fun k => b (ix1 k)) w (c (ix1 (0 : Fin 1))) (i 0) := by
  funext i
  obtain ⟨r, rfl⟩ : ∃ r : Fin 100000, i = ix1 r := ⟨i 0, eq_ix1 i⟩
  unfold Spec.squash
  show Ideal.div (Ideal.ofBits .f32 0x3F800000#32) (Ideal.ofBits .f32 0x3F800000#32
      + Ideal.exp (-(shapeCast S100000 (Spec.logits (F := Ideal) x (Spec.leaky64 (Spec.biased64 z b)) w c) shapeCasts_S100000x1_S100000 (ix1 r)))) = _
  rw [Ideal.ofBits_one_f32, shapeCast_apply _ _ (ix1 r) (ix2 r (0 : Fin 1)) (by
    rw [Shape.rowMajor_val_two, Shape.rowMajor_val_one]
    show r.val * 1 + 0 = r.val
    omega), logits_apply]
  rfl

end Cert.ReferenceIdeal.RefEntry

end
-- ==== Proof.GraphEq.lean ====
/-
  The two programs name their shapes and their gather / scatter descriptions separately; the descriptions are the same
  data, so the graph functions built from them are the same functions.
-/
import proofs.«173752_j1967095022252_1_alg».proof.Proof.GraphK
import proofs.«173752_j1967095022252_1_alg».proof.Proof.GraphR

noncomputable section

namespace Cert.GraphEq

open Idealize.ShloMosaic

variable {F : FTy → Type} [FloatOps F] [Cert.KernelIdeal.Facts₀] [Cert.ReferenceIdeal.Facts₀]

theorem rowIdx_eq (E : (⟨Cert.KernelIdeal.S2x1600000, .i32⟩ : BufTy).Contents (Elt F)) :
    Cert.KernelIdeal.Spec.rowIdx (F := F) E = Cert.ReferenceIdeal.Spec.rowIdx (F := F) E := rfl

theorem colIdx_eq (E : (⟨Cert.KernelIdeal.S2x1600000, .i32⟩ : BufTy).Contents (Elt F)) :
    Cert.KernelIdeal.Spec.colIdx (F := F) E = Cert.ReferenceIdeal.Spec.colIdx (F := F) E := rfl

theorem pick_eq (idx : (⟨Cert.KernelIdeal.S1700000, .i32⟩ : BufTy).Contents (Elt F)) :
    Cert.KernelIdeal.Spec.pick (F := F) idx = Cert.ReferenceIdeal.Spec.pick (F := F) idx := rfl

theorem dinvOf_eq (col : (⟨Cert.KernelIdeal.S1700000, .i32⟩ : BufTy).Contents (Elt F)) :
    Cert.KernelIdeal.Spec.dinvOf (F := F) col = Cert.ReferenceIdeal.Spec.dinvOf (F := F) col := rfl

theorem normOf_eq (row col : (⟨Cert.KernelIdeal.S1700000, .i32⟩ : BufTy).Contents (Elt F)) :
    Cert.KernelIdeal.Spec.normOf (F := F) row col = Cert.ReferenceIdeal.Spec.normOf (F := F) row col := by
  unfold Cert.KernelIdeal.Spec.normOf Cert.ReferenceIdeal.Spec.normOf
  rw [dinvOf_eq, pick_eq, pick_eq]
  rfl

theorem agg32_eq (feat : (⟨Cert.KernelIdeal.S100000x32, .f32⟩ : BufTy).Contents (Elt F))
    (row col : (⟨Cert.KernelIdeal.S1700000, .i32⟩ : BufTy).Contents (Elt F))
    (w : (⟨Cert.KernelIdeal.S1700000, .f32⟩ : BufTy).Contents (Elt F)) :
    Cert.KernelIdeal.Spec.agg32 (F := F) feat row col w = Cert.ReferenceIdeal.Spec.agg32 (F := F) feat row col w := by
  unfold Cert.KernelIdeal.Spec.agg32 Cert.ReferenceIdeal.Spec.agg32
  rw [pick_eq]
  rfl

theorem agg64_eq (feat : (⟨Cert.KernelIdeal.S100000x64, .f32⟩ : BufTy).Contents (Elt F))
    (row col : (⟨Cert.KernelIdeal.S1700000, .i32⟩ : BufTy).Contents (Elt F))
    (w : (⟨Cert.KernelIdeal.S1700000, .f32⟩ : BufTy).Contents (Elt F)) :
    Cert.KernelIdeal.Spec.agg64 (F := F) feat row col w = Cert.ReferenceIdeal.Spec.agg64 (F := F) feat row col w := by
  unfold Cert.KernelIdeal.Spec.agg64 Cert.ReferenceIdeal.Spec.agg64
  rw [pick_eq]
  rfl

end Cert.GraphEq

end
-- ==== Proof.Bridge.lean ====
/-
  The two results are one function of the arguments.

  Both programs end, row by row, at the logistic of [x | lk (S₂ + b2)] · Wfc + bfc, where S₂ is the weighted neighbourhood
  sum of lk (S₁ + b1) · W2 and S₁ the weighted neighbourhood sum of x · W1, over the same source list, target list and
  edge weights of the same edge-list argument.  The kernel program computes the three dense stages in row tiles and the
  reference in one piece; entry by entry they are the same sums.  The graph functions are the same data under the two
  programs' separate names.
-/
import proofs.«173752_j1967095022252_1_alg».proof.Proof.KValue
import proofs.«173752_j1967095022252_1_alg».proof.Proof.RefEntry
import proofs.«173752_j1967095022252_1_alg».proof.Proof.GraphEq
import proofs.«173752_j1967095022252_1_alg».proof.Proof.Gen.ReferenceIdeal

set_option maxRecDepth 16384

noncomputable section

open Idealize.ShloMosaic Idealize.ShloMosaic.TcCoe Idealize.SL.Sem Idealize.ShloMosaic.ValueIdx
open scoped BigOperators

namespace Cert.Bridge

/-- The reference's result, row by row, in the entry-level description. -/
theorem refOut_eq (x : Cert.ReferenceIdeal.S100000x10.Idx → EReal) (E : (⟨Cert.ReferenceIdeal.S2x1600000, .i32⟩ : BufTy).Contents (Elt Ideal))
    (W1 : Cert.ReferenceIdeal.S10x32.Idx → EReal) (b1 : Cert.ReferenceIdeal.S32.Idx → EReal)
    (W2 : Cert.ReferenceIdeal.S32x64.Idx → EReal) (b2 : Cert.ReferenceIdeal.S64.Idx → EReal)
    (Wfc : Cert.ReferenceIdeal.S74x1.Idx → EReal) (bfc : Cert.ReferenceIdeal.S1.Idx → EReal) :
    Cert.ReferenceIdeal.Spec.refOut (F := Ideal) x E W1 b1 W2 b2 Wfc bfc
      = fun i => Cert.Entry.outp x
          (Cert.ReferenceIdeal.Spec.agg64 (F := Ideal)
            (Cert.Entry.hid
              (Cert.ReferenceIdeal.Spec.agg32 (F := Ideal) (Cert.Entry.mm1 x W1) (Cert.ReferenceIdeal.Spec.rowIdx E) (Cert.ReferenceIdeal.Spec.colIdx E)
                (Cert.ReferenceIdeal.Spec.normOf (Cert.ReferenceIdeal.Spec.rowIdx E) (Cert.ReferenceIdeal.Spec.colIdx E)))
              (fun k => b1 (ix1 k)) W2)
            (Cert.ReferenceIdeal.Spec.rowIdx E) (Cert.ReferenceIdeal.Spec.colIdx E)
            (Cert.ReferenceIdeal.Spec.normOf (Cert.ReferenceIdeal.Spec.rowIdx E) (Cert.ReferenceIdeal.Spec.colIdx E)))
          (fun k => b2 (ix1 k)) Wfc (bfc (ix1 (0 : Fin 1))) (i 0) := by
  unfold Cert.ReferenceIdeal.Spec.refOut
  rw [Cert.ReferenceIdeal.RefEntry.dense1_eq, Cert.ReferenceIdeal.RefEntry.hid_eq, Cert.ReferenceIdeal.RefEntry.outp_eq]

open Cert.KernelIdeal in
/-- The kernel program's result is the reference's result of the same arguments. -/
theorem out_eq (m : (ℓ : Loc nD τ sig) → Buf (Elt Ideal) ℓ) (c : Dev nD) :
    Cert.KernelIdeal.KValue.kernelOut m c
      = Cert.ReferenceIdeal.Spec.refOut (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [refOut_eq]
  unfold Cert.KernelIdeal.KValue.kernelOut Cert.KernelIdeal.KValue.wts Cert.KernelIdeal.KValue.row Cert.KernelIdeal.KValue.col
  rw [Cert.GraphEq.agg64_eq, Cert.GraphEq.agg32_eq, Cert.GraphEq.normOf_eq, Cert.GraphEq.rowIdx_eq, Cert.GraphEq.colIdx_eq]

end Cert.Bridge

end
-- ==== Proof.lean ====
/-
  A two-layer graph convolution with a linear head, against its plain reference, over the extended reals.

  Both programs compute, for node features x, an edge list E and weights W1, b1, W2, b2, Wfc, bfc,

      S₁ = A (x · W1),   h₁ = lk (S₁ + b1),   S₂ = A (h₁ · W2),   h₂ = lk (S₂ + b2),
      out = 1 / (1 + exp (−([x | h₂] · Wfc + bfc))),

  where A is the symmetric-normalised neighbourhood sum over the edges of E with a self loop added at every node, and lk is
  the leaky rectifier.  The reference does every step with host operations.  The kernel program does the three dense
  steps — x · W1; lk (· + b1) · W2; the head — in three pipelined regions of ten row tiles each, and A with the same host
  operations as the reference.  A row tile of a matrix product is the matrix product's rows, the rounding of a product's
  operands to a narrower format is the identity on the extended reals, and the logistic function is 1 / (1 + exp (−·));
  so the two results agree entry by entry, with no condition on the inputs.  No operation was rewritten on the way from
  the kernel program to its idealised reading.
-/
import proofs.«173752_j1967095022252_1_alg».proof.Defs
import proofs.«173752_j1967095022252_1_alg».proof.Proof.Gen.Kernel
import proofs.«173752_j1967095022252_1_alg».proof.Proof.Gen.Kernel.Frame
import proofs.«173752_j1967095022252_1_alg».proof.Proof.Gen.KernelIdeal
import proofs.«173752_j1967095022252_1_alg».proof.Proof.Gen.KernelIdeal.Frame
import proofs.«173752_j1967095022252_1_alg».proof.Proof.Gen.ReferenceIdeal
import proofs.«173752_j1967095022252_1_alg».proof.Proof.Gen.Pre_finite_inputs
import proofs.«173752_j1967095022252_1_alg».proof.Proof.RunResult
import proofs.«173752_j1967095022252_1_alg».proof.Proof.KValue
import proofs.«173752_j1967095022252_1_alg».proof.Proof.RefValue
import proofs.«173752_j1967095022252_1_alg».proof.Proof.Bridge

noncomputable section

namespace Cert.Proof

open Idealize.ShloMosaic Idealize.SL.Sem

/-- The kernel program runs and leaves its arguments as launched. -/
theorem frame_k : Cert.frame_Kernel := fun m ρ _ => Cert.Kernel.Gen.frame m ρ

/-- So does its idealised reading. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the eight arguments both programs end with the same result: the kernel program's result
    buffer ends at its last boundary's contents, which is the reference's function of the arguments; the reference ends at
    that function of its own arguments, which are the same arrays. -/
theorem algebraic : Cert.algebraic_KernelIdeal_ReferenceIdeal := by
  intro m ρ m' ρ' _ hagree
  refine ⟨fun c => Cert.KernelIdeal.KValue.kernelOut m c, ?_, ?_⟩
  · exact (θ_run Cert.KernelIdeal.defs _ _).mono
      (fun _ h c => ⟨(h c).1.trans (Cert.KernelIdeal.KValue.W9_v62 m ρ c), (h c).2⟩)
      (Cert.KernelIdeal.GenP.run_result m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7⟩ := hagree c
    rw [e0, e1, e2, e3, e4, e5, e6, e7]
    exact (Cert.Bridge.out_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
